-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x200x512 : Shape := ⟨3, ![8, 200, 512]⟩
abbrev S8x100x640 : Shape := ⟨3, ![8, 100, 640]⟩
abbrev S512x640 : Shape := ⟨2, ![512, 640]⟩
abbrev S640 : Shape := ⟨1, ![640]⟩
abbrev S640x640 : Shape := ⟨2, ![640, 640]⟩
abbrev S640x1024 : Shape := ⟨2, ![640, 1024]⟩
abbrev S1024 : Shape := ⟨1, ![1024]⟩
abbrev S_ : Shape := ⟨0, ![]⟩

class Facts : Prop where
  bcast_S_S8x200x512 : S_.BroadcastsInDim S8x200x512 (![] : Fin 0 → Fin S8x200x512.rank)
  reducesTo_S8x200x512_S_d0_1_2 : S8x200x512.ReducesTo [0, 1, 2] S_
  h_S_ : 0 < S_.numel
  bcast_S_S8x100x640 : S_.BroadcastsInDim S8x100x640 (![] : Fin 0 → Fin S8x100x640.rank)
  reducesTo_S8x100x640_S_d0_1_2 : S8x100x640.ReducesTo [0, 1, 2] S_
  bcast_S_S512x640 : S_.BroadcastsInDim S512x640 (![] : Fin 0 → Fin S512x640.rank)
  reducesTo_S512x640_S_d0_1 : S512x640.ReducesTo [0, 1] S_
  bcast_S_S640 : S_.BroadcastsInDim S640 (![] : Fin 0 → Fin S640.rank)
  reducesTo_S640_S_d0 : S640.ReducesTo [0] S_
  bcast_S_S640x640 : S_.BroadcastsInDim S640x640 (![] : Fin 0 → Fin S640x640.rank)
  reducesTo_S640x640_S_d0_1 : S640x640.ReducesTo [0, 1] S_
  bcast_S_S640x1024 : S_.BroadcastsInDim S640x1024 (![] : Fin 0 → Fin S640x1024.rank)
  reducesTo_S640x1024_S_d0_1 : S640x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S640x640 .f32) (main_arg5 : FVec F S640 .f32) (main_arg6 : FVec F S640x1024 .f32) (main_arg7 : FVec F S1024 .f32) (main_v13 : IVec S_ 1) (main_v16 : IVec S640 1) : IVec S_ 1 :=
  let main_c_5 : IVec S_ 1 := constantI S_ 1 1#1
  let main_v17 : IVec S_ 1 := (fun x v => Host.reduce IntOp.andi x v reducesTo_S640_S_d0 h_S_) main_v16 main_c_5
  let main_v18 : IVec S_ 1 := andi main_v13 main_v17
  let main_v19 : FVec F S640x640 .f32 := Host.absf main_arg4
  let main_cst_6 : FVec F S_ .f32 := constant S_ .f32 0x7F800000#32
  let main_v20 : FVec F S640x640 .f32 := broadcastInDim S640x640 ![] bcast_S_S640x640 main_cst_6
  let main_v21 : IVec S640x640 1 := cmpf .olt main_v19 main_v20
  let main_c_7 : IVec S_ 1 := constantI S_ 1 1#1
  let main_v22 : IVec S_ 1 := (fun x v => Host.reduce IntOp.andi x v reducesTo_S640x640_S_d0_1 h_S_) main_v21 main_c_7
  let main_v23 : IVec S_ 1 := andi main_v18 main_v22
  let main_v24 : FVec F S640 .f32 := Host.absf main_arg5
  let main_cst_8 : FVec F S_ .f32 := constant S_ .f32 0x7F800000#32
  let main_v25 : FVec F S640 .f32 := broadcastInDim S640 ![] bcast_S_S640 main_cst_8
  let main_v26 : IVec S640 1 := cmpf .olt main_v24 main_v25
  let main_c_9 : IVec S_ 1 := constantI S_ 1 1#1
  let main_v27 : IVec S_ 1 := (fun x v => Host.reduce IntOp.andi x v reducesTo_S640_S_d0 h_S_) main_v26 main_c_9
  let main_v28 : IVec S_ 1 := andi main_v23 main_v27
  let main_v29 : FVec F S640x1024 .f32 := Host.absf main_arg6
  let main_cst_10 : FVec F S_ .f32 := constant S_ .f32 0x7F800000#32
  let main_v30 : FVec F S640x1024 .f32 := broadcastInDim S640x1024 ![] bcast_S_S640x1024 main_cst_10
  let main_v31 : IVec S640x1024 1 := cmpf .olt main_v29 main_v30
  let main_c_11 : IVec S_ 1 := constantI S_ 1 1#1
  let main_v32 : IVec S_ 1 := (fun x v => Host.reduce IntOp.andi x v reducesTo_S640x1024_S_d0_1 h_S_) main_v31 main_c_11
  let main_v33 : IVec S_ 1 := andi main_v28 main_v32
  fn_part2 (F := F) main_arg7 main_v33

def fn {F : FTy → Type} [FloatOps F] (main_arg0 : FVec F S8x200x512 .f32) (main_arg1 : FVec F S8x100x640 .f32) (main_arg2 : FVec F S512x640 .f32) (main_arg3 : FVec F S640 .f32) (main_arg4 : FVec F S640x640 .f32) (main_arg5 : FVec F S640 .f32) (main_arg6 : FVec F S640x1024 .f32) (main_arg7 : FVec F S1024 .f32) : IVec S_ 1 :=
  let main_v0 : FVec F S8x200x512 .f32 := Host.absf main_arg0
  let main_cst : FVec F S_ .f32 := constant S_ .f32 0x7F800000#32
  let main_v1 : FVec F S8x200x512 .f32 := broadcastInDim S8x200x512 ![] bcast_S_S8x200x512 main_cst
  let main_v2 : IVec S8x200x512 1 := cmpf .olt main_v0 main_v1
  let main_c : IVec S_ 1 := constantI S_ 1 1#1
  let main_v3 : IVec S_ 1 := (fun x v => Host.reduce IntOp.andi x v reducesTo_S8x200x512_S_d0_1_2 h_S_) main_v2 main_c
  let main_v4 : FVec F S8x100x640 .f32 := Host.absf main_arg1
  let main_cst_0 : FVec F S_ .f32 := constant S_ .f32 0x7F800000#32
  let main_v5 : FVec F S8x100x640 .f32 := broadcastInDim S8x100x640 ![] bcast_S_S8x100x640 main_cst_0
  let main_v6 : IVec S8x100x640 1 := cmpf .olt main_v4 main_v5
  let main_c_1 : IVec S_ 1 := constantI S_ 1 1#1
  let main_v7 : IVec S_ 1 := (fun x v => Host.reduce IntOp.andi x v reducesTo_S8x100x640_S_d0_1_2 h_S_) main_v6 main_c_1
  let main_v8 : IVec S_ 1 := andi main_v3 main_v7
  let main_v9 : FVec F S512x640 .f32 := Host.absf main_arg2
  let main_cst_2 : FVec F S_ .f32 := constant S_ .f32 0x7F800000#32
  let main_v10 : FVec F S512x640 .f32 := broadcastInDim S512x640 ![] bcast_S_S512x640 main_cst_2
  let main_v11 : IVec S512x640 1 := cmpf .olt main_v9 main_v10
  let main_c_3 : IVec S_ 1 := constantI S_ 1 1#1
  let main_v12 : IVec S_ 1 := (fun x v => Host.reduce IntOp.andi x v reducesTo_S512x640_S_d0_1 h_S_) main_v11 main_c_3
  let main_v13 : IVec S_ 1 := andi main_v8 main_v12
  let main_v14 : FVec F S640 .f32 := Host.absf main_arg3
  let main_cst_4 : FVec F S_ .f32 := constant S_ .f32 0x7F800000#32
  let main_v15 : FVec F S640 .f32 := broadcastInDim S640 ![] bcast_S_S640 main_cst_4
  let main_v16 : IVec S640 1 := cmpf .olt main_v14 main_v15
  fn_part1 (F := F) main_arg4 main_arg5 main_arg6 main_arg7 main_v13 main_v16
-- ==== Kernel.lean ====
abbrev S8x200x512 : Shape := ⟨3, ![8, 200, 512]⟩
abbrev S8x100x640 : Shape := ⟨3, ![8, 100, 640]⟩
abbrev S512x640 : Shape := ⟨2, ![512, 640]⟩
abbrev S640 : Shape := ⟨1, ![640]⟩
abbrev S640x640 : Shape := ⟨2, ![640, 640]⟩
abbrev S640x1024 : Shape := ⟨2, ![640, 1024]⟩
abbrev S1024 : Shape := ⟨1, ![1024]⟩
abbrev S1600x512 : Shape := ⟨2, ![1600, 512]⟩
abbrev S800x640 : Shape := ⟨2, ![800, 640]⟩
abbrev S1600x640 : Shape := ⟨2, ![1600, 640]⟩
abbrev S1x640 : Shape := ⟨2, ![1, 640]⟩
abbrev S8x200x640 : Shape := ⟨3, ![8, 200, 640]⟩
abbrev S8x200x100x1024 : Shape := ⟨4, ![8, 200, 100, 1024]⟩
abbrev S1x40x640 : Shape := ⟨3, ![1, 40, 640]⟩
abbrev S1x100x640 : Shape := ⟨3, ![1, 100, 640]⟩
abbrev S1x40x100x1024 : Shape := ⟨4, ![1, 40, 100, 1024]⟩
abbrev S40x640 : Shape := ⟨2, ![40, 640]⟩
abbrev S100x640 : Shape := ⟨2, ![100, 640]⟩
abbrev S40x1x640 : Shape := ⟨3, ![40, 1, 640]⟩
abbrev S40x100x640 : Shape := ⟨3, ![40, 100, 640]⟩
abbrev S4000x640 : Shape := ⟨2, ![4000, 640]⟩
abbrev S4000x1024 : Shape := ⟨2, ![4000, 1024]⟩
abbrev S1x1024 : Shape := ⟨2, ![1, 1024]⟩
abbrev S40x100x1024 : Shape := ⟨3, ![40, 100, 1024]⟩

abbrev nBuf : Space → Nat
  | .hbm => 16
  | .vmem => 16
  | .smem => 0
  | _ => 0

abbrev bufTy : (tb : Table) → Fin (tcTables nBuf tb) → BufTy
  | .hbm, ⟨0, _⟩ => ⟨S8x200x512, .f32⟩
  | .hbm, ⟨1, _⟩ => ⟨S8x100x640, .f32⟩
  | .hbm, ⟨2, _⟩ => ⟨S512x640, .f32⟩
  | .hbm, ⟨3, _⟩ => ⟨S640, .f32⟩
  | .hbm, ⟨4, _⟩ => ⟨S640x640, .f32⟩
  | .hbm, ⟨5, _⟩ => ⟨S640, .f32⟩
  | .hbm, ⟨6, _⟩ => ⟨S640x1024, .f32⟩
  | .hbm, ⟨7, _⟩ => ⟨S1024, .f32⟩
  | .hbm, ⟨8, _⟩ => ⟨S1600x512, .f32⟩
  | .hbm, ⟨9, _⟩ => ⟨S800x640, .f32⟩
  | .hbm, ⟨10, _⟩ => ⟨S1600x640, .bf16⟩
  | .hbm, ⟨11, _⟩ => ⟨S8x200x640, .bf16⟩
  | .hbm, ⟨12, _⟩ => ⟨S800x640, .bf16⟩
  | .hbm, ⟨13, _⟩ => ⟨S8x100x640, .bf16⟩
  | .hbm, ⟨14, _⟩ => ⟨S640x1024, .bf16⟩
  | .hbm, ⟨15, _⟩ => ⟨S8x200x100x1024, .f32⟩
  | .local _ .vmem, ⟨0, _⟩ => ⟨S1600x512, .f32⟩
  | .local _ .vmem, ⟨1, _⟩ => ⟨S512x640, .f32⟩
  | .local _ .vmem, ⟨2, _⟩ => ⟨S640, .f32⟩
  | .local _ .vmem, ⟨3, _⟩ => ⟨S1600x640, .bf16⟩
  | .local _ .vmem, ⟨4, _⟩ => ⟨S800x640, .f32⟩
  | .local _ .vmem, ⟨5, _⟩ => ⟨S640x640, .f32⟩
  | .local _ .vmem, ⟨6, _⟩ => ⟨S640, .f32⟩
  | .local _ .vmem, ⟨7, _⟩ => ⟨S800x640, .bf16⟩
  | .local _ .vmem, ⟨8, _⟩ => ⟨S1x40x640, .bf16⟩
  | .local _ .vmem, ⟨9, _⟩ => ⟨S1x40x640, .bf16⟩
  | .local _ .vmem, ⟨10, _⟩ => ⟨S1x100x640, .bf16⟩
  | .local _ .vmem, ⟨11, _⟩ => ⟨S1x100x640, .bf16⟩
  | .local _ .vmem, ⟨12, _⟩ => ⟨S640x1024, .bf16⟩
  | .local _ .vmem, ⟨13, _⟩ => ⟨S1024, .f32⟩
  | .local _ .vmem, ⟨14, _⟩ => ⟨S1x40x100x1024, .f32⟩
  | .local _ .vmem, ⟨15, _⟩ => ⟨S1x40x100x1024, .f32⟩
  | _, _ => ⟨S8x200x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg4_1 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem1_0 : DmaSem sig := 5
abbrev cc1_sem2_0 : DmaSem sig := 6
abbrev cc1_sem3_0 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem3_0 : DmaSem sig := 13
abbrev cc2_sem4_0 : DmaSem sig := 14
abbrev cc2_sem4_1 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1600x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1600x640 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S800x640 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S640x640 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S640 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S800x640 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨2, ![8, 5], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_4 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 2 → Memref sig .tc .vmem S1x40x640 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x100x640 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 1 → Memref sig .tc .vmem S640x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1x40x100x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

class Facts₀ : Prop where
  shapeCasts_S8x200x512_S1600x512 : S8x200x512.ShapeCasts S1600x512
  shapeCasts_S8x100x640_S800x640 : S8x100x640.ShapeCasts S800x640
  inb_S1600x512_S1600x512_0_0 : ∀ a, (![0, 0] : Fin 2 → Nat) a + S1600x512.size a ≤ S1600x512.size a
  h_S1600x512 : 0 < S1600x512.numel
  shapeCasts_S1600x512_S1600x512 : S1600x512.ShapeCasts S1600x512
  inb_S512x640_S512x640_0_0 : ∀ a, (![0, 0] : Fin 2 → Nat) a + S512x640.size a ≤ S512x640.size a
  h_S512x640 : 0 < S512x640.numel
  inb_S640_S640_0 : ∀ a, (![0] : Fin 1 → Nat) a + S640.size a ≤ S640.size a
  h_S640 : 0 < S640.numel
  shapeCasts_S640_S1x640 : S640.ShapeCasts S1x640
  broadcasts_S1x640_S1600x640 : S1x640.Broadcasts S1600x640
  bitsLt_bf16_f32 : FTy.bits .bf16 < FTy.bits .f32
  inb_S1600x640_S1600x640_0_0 : ∀ a, (![0, 0] : Fin 2 → Nat) a + S1600x640.size a ≤ S1600x640.size a
  h_S1600x640 : 0 < S1600x640.numel
  packedbf16_S1600x640_S1600x640_0_0 : (Rect.unit (s := S1600x640) ![0, 0] S1600x640.size inb_S1600x640_S1600x640_0_0).PackedRows (EltTy.packing .bf16)
  shapeCasts_S1600x640_S8x200x640 : S1600x640.ShapeCasts S8x200x640
  inb_S800x640_S800x640_0_0 : ∀ a, (![0, 0] : Fin 2 → Nat) a + S800x640.size a ≤ S800x640.size a
  h_S800x640 : 0 < S800x640.numel
  shapeCasts_S800x640_S800x640 : S800x640.ShapeCasts S800x640
  inb_S640x640_S640x640_0_0 : ∀ a, (![0, 0] : Fin 2 → Nat) a + S640x640.size a ≤ S640x640.size a
  h_S640x640 : 0 < S640x640.numel
  broadcasts_S1x640_S800x640 : S1x640.Broadcasts S800x640
  packedbf16_S800x640_S800x640_0_0 : (Rect.unit (s := S800x640) ![0, 0] S800x640.size inb_S800x640_S800x640_0_0).PackedRows (EltTy.packing .bf16)
  shapeCasts_S800x640_S8x100x640 : S800x640.ShapeCasts S8x100x640
  inb_S1x40x640_S1x40x640_0_0_0 : ∀ a, (![0, 0, 0] : Fin 3 → Nat) a + S1x40x640.size a ≤ S1x40x640.size a
  h_S1x40x640 : 0 < S1x40x640.numel
  shapeCasts_S1x40x640_S40x640 : S1x40x640.ShapeCasts S40x640
  inb_S1x100x640_S1x100x640_0_0_0 : ∀ a, (![0, 0, 0] : Fin 3 → Nat) a + S1x100x640.size a ≤ S1x100x640.size a
  h_S1x100x640 : 0 < S1x100x640.numel
  shapeCasts_S1x100x640_S100x640 : S1x100x640.ShapeCasts S100x640
  shapeCasts_S40x640_S40x1x640 : S40x640.ShapeCasts S40x1x640
  shapeCasts_S100x640_S1x100x640 : S100x640.ShapeCasts S1x100x640
  broadcasts_S40x1x640_S40x100x640 : S40x1x640.Broadcasts S40x100x640
  broadcasts_S1x100x640_S40x100x640 : S1x100x640.Broadcasts S40x100x640
  shapeCasts_S40x100x640_S4000x640 : S40x100x640.ShapeCasts S4000x640
  inb_S640x1024_S640x1024_0_0 : ∀ a, (![0, 0] : Fin 2 → Nat) a + S640x1024.size a ≤ S640x1024.size a
  h_S640x1024 : 0 < S640x1024.numel
  shapeCasts_S640x1024_S640x1024 : S640x1024.ShapeCasts S640x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S4000x1024 : S1x1024.Broadcasts S4000x1024
  shapeCasts_S4000x1024_S40x100x1024 : S4000x1024.ShapeCasts S40x100x1024
  inb_S1x40x100x1024_S1x40x100x1024_0_0_0_0 : ∀ a, (![0, 0, 0, 0] : Fin 4 → Nat) a + S1x40x100x1024.size a ≤ S1x40x100x1024.size a
  h_S1x40x100x1024 : 0 < S1x40x100x1024.numel
  shapeCasts_S1x40x100x1024_S40x100x1024 : S1x40x100x1024.ShapeCasts S40x100x1024
  shapeCasts_S40x100x1024_S1x40x100x1024 : S40x100x1024.ShapeCasts S1x40x100x1024
  dot_S1600x512_S512x640_S1600x640_1_0_0_1_n_n_wf : DotDims.WF S1600x512 S512x640 S1600x640 [1] [0] [0] [1] [] []
  dot_S800x640_S640x640_S800x640_1_0_0_1_n_n_wf : DotDims.WF S800x640 S640x640 S800x640 [1] [0] [0] [1] [] []
  dot_S4000x640_S640x1024_S4000x1024_1_0_0_1_n_n_wf : DotDims.WF S4000x640 S640x1024 S4000x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1600x512.size a ≤ S1600x512.size a
  hwx0_0 : ∀ i : grid0.Coords, EltTy.bits .f32 = 32 ∨ (Rect.block (s := S1600x512) S1600x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x640.size a ≤ S512x640.size a
  hwx0_1 : ∀ i : grid0.Coords, EltTy.bits .f32 = 32 ∨ (Rect.block (s := S512x640) S512x640.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S640.size a ≤ S640.size a
  hwx0_2 : ∀ i : grid0.Coords, EltTy.bits .f32 = 32 ∨ (Rect.block (s := S640) S640.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1600x640.size a ≤ S1600x640.size a
  hwx0_3 : ∀ i : grid0.Coords, EltTy.bits .bf16 = 32 ∨ (Rect.block (s := S1600x640) S1600x640.size (cc0_transform_3 i) (hinb0_3 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S800x640.size a ≤ S800x640.size a
  hwx1_0 : ∀ i : grid1.Coords, EltTy.bits .f32 = 32 ∨ (Rect.block (s := S800x640) S800x640.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S640x640.size a ≤ S640x640.size a
  hwx1_1 : ∀ i : grid1.Coords, EltTy.bits .f32 = 32 ∨ (Rect.block (s := S640x640) S640x640.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S640.size a ≤ S640.size a
  hwx1_2 : ∀ i : grid1.Coords, EltTy.bits .f32 = 32 ∨ (Rect.block (s := S640) S640.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S800x640.size a ≤ S800x640.size a
  hwx1_3 : ∀ i : grid1.Coords, EltTy.bits .bf16 = 32 ∨ (Rect.block (s := S800x640) S800x640.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x40x640.size a ≤ S8x200x640.size a
  hwx2_0 : ∀ i : grid2.Coords, EltTy.bits .bf16 = 32 ∨ (Rect.block (s := S8x200x640) S1x40x640.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x100x640.size a ≤ S8x100x640.size a
  hwx2_1 : ∀ i : grid2.Coords, EltTy.bits .bf16 = 32 ∨ (Rect.block (s := S8x100x640) S1x100x640.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S640x1024.size a ≤ S640x1024.size a
  hwx2_2 : ∀ i : grid2.Coords, EltTy.bits .bf16 = 32 ∨ (Rect.block (s := S640x1024) S640x1024.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1024.size a ≤ S1024.size a
  hwx2_3 : ∀ i : grid2.Coords, EltTy.bits .f32 = 32 ∨ (Rect.block (s := S1024) S1024.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x40x100x1024.size a ≤ S8x200x100x1024.size a
  hwx2_4 : ∀ i : grid2.Coords, EltTy.bits .f32 = 32 ∨ (Rect.block (s := S8x200x100x1024) S1x40x100x1024.size (cc2_transform_4 i) (hinb2_4 i)).WholeWords (EltTy.packing .f32)

variable [Facts₀]

def dot_S1600x512_S512x640_S1600x640_1_0_0_1_n_n : DotDims S1600x512 S512x640 S1600x640 where
  lhsContracting := [1]
  rhsContracting := [0]
  lhsNonContracting := [0]
  rhsNonContracting := [1]
  lhsBatch := []
  rhsBatch := []
  wf := dot_S1600x512_S512x640_S1600x640_1_0_0_1_n_n_wf
def dot_S800x640_S640x640_S800x640_1_0_0_1_n_n : DotDims S800x640 S640x640 S800x640 where
  lhsContracting := [1]
  rhsContracting := [0]
  lhsNonContracting := [0]
  rhsNonContracting := [1]
  lhsBatch := []
  rhsBatch := []
  wf := dot_S800x640_S640x640_S800x640_1_0_0_1_n_n_wf
def dot_S4000x640_S640x1024_S4000x1024_1_0_0_1_n_n : DotDims S4000x640 S640x1024 S4000x1024 where
  lhsContracting := [1]
  rhsContracting := [0]
  lhsNonContracting := [0]
  rhsNonContracting := [1]
  lhsBatch := []
  rhsBatch := []
  wf := dot_S4000x640_S640x1024_S4000x1024_1_0_0_1_n_n_wf

abbrev win0_0 : Pipeline.Window sig grid0 :=
  Pipeline.Window.ofSpec (Memref.whole main_v0) S1600x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x640.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S640.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1600x640.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S800x640.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S640x640.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S640.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S800x640.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v3) S1x40x640.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S1x100x640.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v6) S640x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v7) S1x40x100x1024.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S8x200x512 : Shape := ⟨3, ![8, 200, 512]⟩
abbrev S8x100x640 : Shape := ⟨3, ![8, 100, 640]⟩
abbrev S512x640 : Shape := ⟨2, ![512, 640]⟩
abbrev S640 : Shape := ⟨1, ![640]⟩
abbrev S640x640 : Shape := ⟨2, ![640, 640]⟩
abbrev S640x1024 : Shape := ⟨2, ![640, 1024]⟩
abbrev S1024 : Shape := ⟨1, ![1024]⟩
abbrev S8x200x640 : Shape := ⟨3, ![8, 200, 640]⟩
abbrev S1x1x640 : Shape := ⟨3, ![1, 1, 640]⟩
abbrev S8x200x1x640 : Shape := ⟨4, ![8, 200, 1, 640]⟩
abbrev S8x1x100x640 : Shape := ⟨4, ![8, 1, 100, 640]⟩
abbrev S8x200x100x640 : Shape := ⟨4, ![8, 200, 100, 640]⟩
abbrev S8x200x100x1024 : Shape := ⟨4, ![8, 200, 100, 1024]⟩
abbrev S1x1x1x1024 : Shape := ⟨4, ![1, 1, 1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S8x200x512, .f32⟩
  | .hbm, ⟨1, _⟩ => ⟨S8x100x640, .f32⟩
  | .hbm, ⟨2, _⟩ => ⟨S512x640, .f32⟩
  | .hbm, ⟨3, _⟩ => ⟨S640, .f32⟩
  | .hbm, ⟨4, _⟩ => ⟨S640x640, .f32⟩
  | .hbm, ⟨5, _⟩ => ⟨S640, .f32⟩
  | .hbm, ⟨6, _⟩ => ⟨S640x1024, .f32⟩
  | .hbm, ⟨7, _⟩ => ⟨S1024, .f32⟩
  | .hbm, ⟨8, _⟩ => ⟨S8x200x640, .f32⟩
  | .hbm, ⟨9, _⟩ => ⟨S1x1x640, .f32⟩
  | .hbm, ⟨10, _⟩ => ⟨S8x200x640, .f32⟩
  | .hbm, ⟨11, _⟩ => ⟨S8x200x640, .f32⟩
  | .hbm, ⟨12, _⟩ => ⟨S8x100x640, .f32⟩
  | .hbm, ⟨13, _⟩ => ⟨S1x1x640, .f32⟩
  | .hbm, ⟨14, _⟩ => ⟨S8x100x640, .f32⟩
  | .hbm, ⟨15, _⟩ => ⟨S8x100x640, .f32⟩
  | .hbm, ⟨16, _⟩ => ⟨S8x200x1x640, .f32⟩
  | .hbm, ⟨17, _⟩ => ⟨S8x1x100x640, .f32⟩
  | .hbm, ⟨18, _⟩ => ⟨S8x200x100x640, .f32⟩
  | .hbm, ⟨19, _⟩ => ⟨S8x200x100x640, .f32⟩
  | .hbm, ⟨20, _⟩ => ⟨S8x200x100x640, .f32⟩
  | .hbm, ⟨21, _⟩ => ⟨S8x200x100x640, .f32⟩
  | .hbm, ⟨22, _⟩ => ⟨S8x200x100x1024, .f32⟩
  | .hbm, ⟨23, _⟩ => ⟨S1x1x1x1024, .f32⟩
  | .hbm, ⟨24, _⟩ => ⟨S8x200x100x1024, .f32⟩
  | .hbm, ⟨25, _⟩ => ⟨S8x200x100x1024, .f32⟩
  | _, _ => ⟨S8x200x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S640_S1x1x640_2 : S640.BroadcastsInDim S1x1x640 (![2] : Fin 1 → Fin S1x1x640.rank)
  bcast_S1x1x640_S8x200x640_0_1_2 : S1x1x640.BroadcastsInDim S8x200x640 (![0, 1, 2] : Fin 3 → Fin S8x200x640.rank)
  bcast_S1x1x640_S8x100x640_0_1_2 : S1x1x640.BroadcastsInDim S8x100x640 (![0, 1, 2] : Fin 3 → Fin S8x100x640.rank)
  bcast_S8x200x640_S8x200x1x640_0_1_3 : S8x200x640.BroadcastsInDim S8x200x1x640 (![0, 1, 3] : Fin 3 → Fin S8x200x1x640.rank)
  bcast_S8x100x640_S8x1x100x640_0_2_3 : S8x100x640.BroadcastsInDim S8x1x100x640 (![0, 2, 3] : Fin 3 → Fin S8x1x100x640.rank)
  bcast_S8x200x1x640_S8x200x100x640_0_1_2_3 : S8x200x1x640.BroadcastsInDim S8x200x100x640 (![0, 1, 2, 3] : Fin 4 → Fin S8x200x100x640.rank)
  bcast_S8x1x100x640_S8x200x100x640_0_1_2_3 : S8x1x100x640.BroadcastsInDim S8x200x100x640 (![0, 1, 2, 3] : Fin 4 → Fin S8x200x100x640.rank)
  bcast_S1024_S1x1x1x1024_3 : S1024.BroadcastsInDim S1x1x1x1024 (![3] : Fin 1 → Fin S1x1x1x1024.rank)
  bcast_S1x1x1x1024_S8x200x100x1024_0_1_2_3 : S1x1x1x1024.BroadcastsInDim S8x200x100x1024 (![0, 1, 2, 3] : Fin 4 → Fin S8x200x100x1024.rank)
  dot_S8x200x512_S512x640_S8x200x640_2_0_01_1_n_n_wf : DotDims.WF S8x200x512 S512x640 S8x200x640 [2] [0] [0, 1] [1] [] []
  dot_S8x100x640_S640x640_S8x100x640_2_0_01_1_n_n_wf : DotDims.WF S8x100x640 S640x640 S8x100x640 [2] [0] [0, 1] [1] [] []
  dot_S8x200x100x640_S640x1024_S8x200x100x1024_3_0_012_1_n_n_wf : DotDims.WF S8x200x100x640 S640x1024 S8x200x100x1024 [3] [0] [0, 1, 2] [1] [] []

variable [Facts₀]

def dot_S8x200x512_S512x640_S8x200x640_2_0_01_1_n_n : DotDims S8x200x512 S512x640 S8x200x640 where
  lhsContracting := [2]
  rhsContracting := [0]
  lhsNonContracting := [0, 1]
  rhsNonContracting := [1]
  lhsBatch := []
  rhsBatch := []
  wf := dot_S8x200x512_S512x640_S8x200x640_2_0_01_1_n_n_wf
def dot_S8x100x640_S640x640_S8x100x640_2_0_01_1_n_n : DotDims S8x100x640 S640x640 S8x100x640 where
  lhsContracting := [2]
  rhsContracting := [0]
  lhsNonContracting := [0, 1]
  rhsNonContracting := [1]
  lhsBatch := []
  rhsBatch := []
  wf := dot_S8x100x640_S640x640_S8x100x640_2_0_01_1_n_n_wf
def dot_S8x200x100x640_S640x1024_S8x200x100x1024_3_0_012_1_n_n : DotDims S8x200x100x640 S640x1024 S8x200x100x1024 where
  lhsContracting := [3]
  rhsContracting := [0]
  lhsNonContracting := [0, 1, 2]
  rhsNonContracting := [1]
  lhsBatch := []
  rhsBatch := []
  wf := dot_S8x200x100x640_S640x1024_S8x200x100x1024_3_0_012_1_n_n_wf

class Facts : Prop extends Facts₀ where

variable [Facts]
-- ==== Proof.KernelRun.lean ====
/-
  The idealized kernel's run, read at the last boundary.

  The program is three kernel launches between short stretches of host operations.  Its frame is proved over the contents
  of every buffer at each boundary between a stretch and a launch; the last boundary's contents `W6` are what the final
  memory holds at every buffer that outlives the launches.  The frame keeps of this only the eight arguments.  Here the
  same run is stated with every such buffer read off the last boundary (`run_boundary`), and from it the run with the
  result `main_v7` named beside the arguments (`run_result`).
-/
import proofs.«164637_j3582002725423_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and in every final state each buffer that outlives
    the launches holds the last boundary's contents: the segments' launch, the last thread state read against the final
    state. -/
theorem run_boundary : θ_run defs (onTc (τ := τ) (main (F := F))) ⟨m, fun _ => 0, ρ⟩
    (fun r => ∀ c : Dev nD, ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The same run with the result named: `main_v7` at the last boundary's contents, the eight arguments as launched. -/
theorem run_result : θ_run defs (onTc (τ := τ) (main (F := F))) ⟨m, fun _ => 0, ρ⟩ (fun r => ∀ c : Dev nD,
      r.2.mem ((c.tc : Thread nD τ).loc main_v7) = W6 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
      ⟨h c _ (mem_uc main_v7 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)
    (run_boundary m ρ)

end Cert.KernelIdeal.Result

end
-- ==== Proof.LibPlainProduct.lean ====
/-
  The plain matrix product at the ideal values, where a product is an exact sum.

  For `A : [m, k]` and `B : [k, n]`, the product contracting the second axis of `A` with the first of `B` into a zero
  accumulator has at `(a, b)` the sum over `c` of `A (a, c) · B (c, b)`.
-/
import Idealize.ShloMosaic.Lib.Pipeline.Value
import Idealize.ShloMosaic.Lib.ValueIdx
import Idealize.ShloMosaic.PureOps.Ideal.Laws

noncomputable section

namespace Cert.PlainProduct

open Idealize.ShloMosaic Idealize.ShloMosaic.ValueIdx

/-- `A · B` into the zero accumulator, read at `(a, b)`: the sum over the shared coordinate of the products. -/
theorem matmul_nn_apply {m n k : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant _ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.PlainProduct

end
-- ==== Proof.Spec.lean ====
/-
  The transducer joint network as one function of its eight arguments, entry by entry, over the extended reals.

  For a batch entry `b`, an encoder frame `t`, a predictor step `u` and a vocabulary entry `v`:

    encRow b t j  = Σ_d enc[b, t, d] · W_enc[d, j] + b_enc[j]
    predRow b u j = Σ_d pred[b, u, d] · W_pred[d, j] + b_pred[j]
    logit b t u v = Σ_j tanh (encRow b t j + predRow b u j) · W_out[j, v] + b_out[v]

  Both programs compute exactly these sums, in this order of the terms; nothing here needs the inputs to be finite.
-/
import Idealize.ShloMosaic.PureOps.Ideal
import Idealize.ShloMosaic.Lib.ValueIdx

noncomputable section

namespace Cert.Joint

open Idealize.ShloMosaic Idealize.ShloMosaic.ValueIdx

/-- One entry of a dense layer with bias: row `r` of `A : [m, k]` against column `j` of `W : [k, n]`, plus `bias j`. -/
def dense {m k n : ℕ} (A : (⟨2, ![m, k]⟩ : Shape).Idx → EReal) (W : (⟨2, ![k, n]⟩ : Shape).Idx → EReal)
    (bias : (⟨1, ![n]⟩ : Shape).Idx → EReal) (r : Fin m) (j : Fin n) : EReal :=
  (∑ d : Fin k, A (ix2 r d) * W (ix2 d j)) + bias (ix1 j)

/-- The same entry when the rows of `A` are indexed by a pair `(b, t)`: `A : [B, T, k]`. -/
def dense3 {B T k n : ℕ} (A : (⟨3, ![B, T, k]⟩ : Shape).Idx → EReal) (W : (⟨2, ![k, n]⟩ : Shape).Idx → EReal)
    (bias : (⟨1, ![n]⟩ : Shape).Idx → EReal) (b : Fin B) (t : Fin T) (j : Fin n) : EReal :=
  (∑ d : Fin k, A (ix3 b t d) * W (ix2 d j)) + bias (ix1 j)

/-- One logit from the two projected arrays `E : [B, T, J]`, `P : [B, U, J]`: the hyperbolic tangent of the sum of frame
    `t` and step `u`, against column `v` of `W : [J, V]`, plus `bias v`. -/
def joint {B T U J V : ℕ} (E : (⟨3, ![B, T, J]⟩ : Shape).Idx → EReal) (P : (⟨3, ![B, U, J]⟩ : Shape).Idx → EReal)
    (W : (⟨2, ![J, V]⟩ : Shape).Idx → EReal) (bias : (⟨1, ![V]⟩ : Shape).Idx → EReal)
    (b : Fin B) (t : Fin T) (u : Fin U) (v : Fin V) : EReal :=
  (∑ j : Fin J, Ideal.tanh (E (ix3 b t j) + P (ix3 b u j)) * W (ix2 j v)) + bias (ix1 v)

/-- The whole network: the logit at `(b, t, u, v)` from the eight arguments. -/
def logit (enc : (⟨3, ![8, 200, 512]⟩ : Shape).Idx → EReal) (pred : (⟨3, ![8, 100, 640]⟩ : Shape).Idx → EReal)
    (Wenc : (⟨2, ![512, 640]⟩ : Shape).Idx → EReal) (benc : (⟨1, ![640]⟩ : Shape).Idx → EReal)
    (Wpred : (⟨2, ![640, 640]⟩ : Shape).Idx → EReal) (bpred : (⟨1, ![640]⟩ : Shape).Idx → EReal)
    (Wout : (⟨2, ![640, 1024]⟩ : Shape).Idx → EReal) (bout : (⟨1, ![1024]⟩ : Shape).Idx → EReal)
    (b : Fin 8) (t : Fin 200) (u : Fin 100) (v : Fin 1024) : EReal :=
  (∑ j : Fin 640, Ideal.tanh (dense3 enc Wenc benc b t j + dense3 pred Wpred bpred b u j) * Wout (ix2 j v)) + bout (ix1 v)

/-- The network's result array: `logit` at the coordinates of an index of `[8, 200, 100, 1024]`. -/
def logits (enc : (⟨3, ![8, 200, 512]⟩ : Shape).Idx → EReal) (pred : (⟨3, ![8, 100, 640]⟩ : Shape).Idx → EReal)
    (Wenc : (⟨2, ![512, 640]⟩ : Shape).Idx → EReal) (benc : (⟨1, ![640]⟩ : Shape).Idx → EReal)
    (Wpred : (⟨2, ![640, 640]⟩ : Shape).Idx → EReal) (bpred : (⟨1, ![640]⟩ : Shape).Idx → EReal)
    (Wout : (⟨2, ![640, 1024]⟩ : Shape).Idx → EReal) (bout : (⟨1, ![1024]⟩ : Shape).Idx → EReal) :
    (⟨4, ![8, 200, 100, 1024]⟩ : Shape).Idx → EReal :=
  fun i => logit enc pred Wenc benc Wpred bpred Wout bout (i 0) (i 1) (i 2) (i 3)

/-- `logit` is `joint` of the two projected arrays. -/
theorem logit_eq_joint (enc : (⟨3, ![8, 200, 512]⟩ : Shape).Idx → EReal) (pred : (⟨3, ![8, 100, 640]⟩ : Shape).Idx → EReal)
    (Wenc : (⟨2, ![512, 640]⟩ : Shape).Idx → EReal) (benc : (⟨1, ![640]⟩ : Shape).Idx → EReal)
    (Wpred : (⟨2, ![640, 640]⟩ : Shape).Idx → EReal) (bpred : (⟨1, ![640]⟩ : Shape).Idx → EReal)
    (Wout : (⟨2, ![640, 1024]⟩ : Shape).Idx → EReal) (bout : (⟨1, ![1024]⟩ : Shape).Idx → EReal)
    (E : (⟨3, ![8, 200, 640]⟩ : Shape).Idx → EReal) (P : (⟨3, ![8, 100, 640]⟩ : Shape).Idx → EReal)
    (hE : ∀ b t j, E (ix3 b t j) = dense3 enc Wenc benc b t j) (hP : ∀ b u j, P (ix3 b u j) = dense3 pred Wpred bpred b u j)
    (b : Fin 8) (t : Fin 200) (u : Fin 100) (v : Fin 1024) :
    joint E P Wout bout b t u v = logit enc pred Wenc benc Wpred bpred Wout bout b t u v := by
  unfold joint logit
  refine congrArg (· + bout (ix1 v)) (Finset.sum_congr rfl fun j _ => ?_)
  rw [hE, hP]

end Cert.Joint

end
-- ==== Proof.Projection.lean ====
/-
  The two projection kernels at an index.

  Each stores, for its whole `[m, 640]` block at once, the matrix product of the loaded rows with the loaded weights into a zero
  accumulator, plus the bias row repeated down the rows; the change of float format on the way out is the identity on
  the extended reals.  So entry `(r, q)` of what it stores is `Σ_d x[r, d] · w[d, q] + bias[q]`.
-/
import proofs.«164637_j3582002725423_1_alg».proof.Proof.Gen.KernelIdeal.Skeleton
import proofs.«164637_j3582002725423_1_alg».proof.Proof.LibPlainProduct
import proofs.«164637_j3582002725423_1_alg».proof.Proof.Spec
import Idealize.ShloMosaic.Lib.ValueLayout
import Idealize.ShloMosaic.Lib.Pipeline.Value
import Idealize.ShloMosaic.Lib.ValueIdx
import Idealize.ShloMosaic.PureOps.Ideal.Laws

noncomputable section

namespace Cert.KernelIdeal.Projection

open Cert.KernelIdeal Cert.KernelIdeal.Gen Idealize.ShloMosaic Idealize.ShloMosaic.ValueIdx

/-- The encoder projection's stored block at `(r, q)`. -/
theorem enc_apply (x0 : Vec Ideal S1600x512 .f32) (x1 : Vec Ideal S512x640 .f32) (x2 : Vec Ideal S640 .f32)
    (r : Fin 1600) (q : Fin 640) :
    k0_pay1 (F := Ideal) x0 x1 x2 (ix2 r q) = Cert.Joint.dense x0 x1 x2 r q := by
  unfold k0_pay1 Cert.Joint.dense
  show (matmul (F := Ideal) dot_S1600x512_S512x640_S1600x640_1_0_0_1_n_n none (shapeCast S1600x512 x0 shapeCasts_S1600x512_S1600x512) x1
        (constant S1600x640 .f32 0x00000000#32)) (ix2 r q)
      + (broadcastTo S1600x640 (shapeCast S1x640 x2 shapeCasts_S640_S1x640) broadcasts_S1x640_S1600x640) (ix2 r q) = _
  rw [shapeCast_self, broadcastTo_1b_ab_apply, shapeCast_a_1a_apply]
  exact congrArg (· + x2 (ix1 q)) (Cert.PlainProduct.matmul_nn_apply _ none x0 x1 r q)

/-- The predictor projection's stored block at `(r, q)`. -/
theorem pred_apply (x0 : Vec Ideal S800x640 .f32) (x1 : Vec Ideal S640x640 .f32) (x2 : Vec Ideal S640 .f32)
    (r : Fin 800) (q : Fin 640) :
    k1_pay1 (F := Ideal) x0 x1 x2 (ix2 r q) = Cert.Joint.dense x0 x1 x2 r q := by
  unfold k1_pay1 Cert.Joint.dense
  show (matmul (F := Ideal) dot_S800x640_S640x640_S800x640_1_0_0_1_n_n none (shapeCast S800x640 x0 shapeCasts_S800x640_S800x640) x1
        (constant S800x640 .f32 0x00000000#32)) (ix2 r q)
      + (broadcastTo S800x640 (shapeCast S1x640 x2 shapeCasts_S640_S1x640) broadcasts_S1x640_S800x640) (ix2 r q) = _
  rw [shapeCast_self, broadcastTo_1b_ab_apply, shapeCast_a_1a_apply]
  exact congrArg (· + x2 (ix1 q)) (Cert.PlainProduct.matmul_nn_apply _ none x0 x1 r q)

end Cert.KernelIdeal.Projection

end
-- ==== Proof.EncLaunch.lean ====
/-
  The encoder projection's launch: its output array after the launch.

  The grid is one point and every window's block is its whole array, so the array the launch writes is what the body
  stores, read at the whole input arrays as the launch finds them: entry `(r, q)` is
  `Σ_d x[r, d] · w[d, q] + bias[q]` of the launch's operands `x` (`main_v0`), `w` (`main_arg2`), `bias` (`main_arg3`).
-/
import proofs.«164637_j3582002725423_1_alg».proof.Proof.Gen.KernelIdeal.Frame
import proofs.«164637_j3582002725423_1_alg».proof.Proof.Projection
import proofs.«164637_j3582002725423_1_alg».proof.Proof.Spec
import Idealize.ShloMosaic.Lib.Pipeline.Value
import Idealize.ShloMosaic.Lib.ValueIdx

set_option maxRecDepth 16384

noncomputable section

namespace Cert.KernelIdeal.EncLaunch

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-- The array the launch leaves: the dense layer of the operands as the launch finds them. -/
def out (c : Dev nD) : S1600x640.Idx → EReal :=
  fun i => Cert.Joint.dense (V c main_v0) (V c main_arg2) (V c main_arg3) (i 0) (i 1)

theorem out_apply (c : Dev nD) (r : Fin 1600) (q : Fin 640) :
    out V c (ix2 r q) = Cert.Joint.dense (V c main_v0) (V c main_arg2) (V c main_arg3) r q := rfl

/-- At the one grid point every window's block index is zero on every axis. -/
theorem index_zero : ∀ t : Fin cfg0.N, win0_0.index t (0 : Fin 2) = 0 ∧ win0_0.index t (1 : Fin 2) = 0
    ∧ win0_1.index t (0 : Fin 2) = 0 ∧ win0_1.index t (1 : Fin 2) = 0 ∧ win0_2.index t (0 : Fin 1) = 0
    ∧ win0_3.index t (0 : Fin 2) = 0 ∧ win0_3.index t (1 : Fin 2) = 0 :=
  (by decide +kernel : ∀ t : Fin grid0.N, _)

/-- What the one point writes back is the whole of `out`. -/
theorem flushed_eq (c : Dev nD) (t : Fin cfg0.N) :
    (dat0 V c).flushed 3 t = ((cfg0.win 3).blk t).view.read (Elt Ideal) (out V c) := by
  show (cfg0.win 3).cut (grid0.coords t) ((dat0 V c).after 3 t) = _
  rw [after0_3]
  unfold out0_3
  rw [View.canon_unit_zero zero2]
  simp only [View.ld_unit_zero (S := S1600x512) zero2, View.ld_unit_zero (S := S512x640) zero2,
    View.ld_unit_zero (S := S640) zero1]
  obtain ⟨e00, e01, e10, e11, e20, e30, e31⟩ := index_zero t
  funext j
  obtain ⟨r, q, rfl⟩ : ∃ (r : Fin 1600) (q : Fin 640), j = ix2 r q := ⟨j 0, j 1, eq_ix2 j⟩
  have he : ((cfg0.win 3).blk t).view.emb (ix2 r q) = ix2 r q := funext fun a => Fin.ext (by
    match a with
    | ⟨0, _⟩ => show win0_3.index t (0 : Fin 2) * 1600 + 1 * r.val = r.val; omega
    | ⟨1, _⟩ => show win0_3.index t (1 : Fin 2) * 640 + 1 * q.val = q.val; omega)
  show k0_pay1 (iblk0 V c 0 t) (iblk0 V c 1 t) (iblk0 V c 2 t) (ix2 r q) = out V c (((cfg0.win 3).blk t).view.emb (ix2 r q))
  rw [he, out_apply, Projection.enc_apply]
  unfold Cert.Joint.dense
  have h0 : ∀ d : Fin 512, iblk0 V c 0 t (ix2 r d) = V c main_v0 (ix2 r d) := fun d => by
    show V c main_v0 (((cfg0.win 0).blk t).view.emb (ix2 r d)) = V c main_v0 (ix2 r d)
    refine congrArg _ (funext fun a => Fin.ext ?_)
    match a with
    | ⟨0, _⟩ => show win0_0.index t (0 : Fin 2) * 1600 + 1 * r.val = r.val; omega
    | ⟨1, _⟩ => show win0_0.index t (1 : Fin 2) * 512 + 1 * d.val = d.val; omega
  have h1 : ∀ d : Fin 512, iblk0 V c 1 t (ix2 d q) = V c main_arg2 (ix2 d q) := fun d => by
    show V c main_arg2 (((cfg0.win 1).blk t).view.emb (ix2 d q)) = V c main_arg2 (ix2 d q)
    refine congrArg _ (funext fun a => Fin.ext ?_)
    match a with
    | ⟨0, _⟩ => show win0_1.index t (0 : Fin 2) * 512 + 1 * d.val = d.val; omega
    | ⟨1, _⟩ => show win0_1.index t (1 : Fin 2) * 640 + 1 * q.val = q.val; omega
  have h2 : iblk0 V c 2 t (ix1 q) = V c main_arg3 (ix1 q) := by
    show V c main_arg3 (((cfg0.win 2).blk t).view.emb (ix1 q)) = V c main_arg3 (ix1 q)
    refine congrArg _ (funext fun a => Fin.ext ?_)
    match a with
    | ⟨0, _⟩ => show win0_2.index t (0 : Fin 1) * 640 + 1 * q.val = q.val; omega
  rw [h2]
  exact congrArg (· + V c main_arg3 (ix1 q)) (Finset.sum_congr rfl fun d _ => by rw [h0 d, h1 d])

/-- An index of the array is in the point's block iff each coordinate is in the block's range on its axis. -/
theorem mem_blk (t : Fin cfg0.N) (i : S1600x640.Idx) :
    i ∈ ((cfg0.win 3).blk t).view.set ↔ ∀ a : Fin 2, win0_3.index t a * S1600x640.size a ≤ (i a).val
      ∧ (i a).val < win0_3.index t a * S1600x640.size a + S1600x640.size a := by
  show i ∈ ((View.whole main_v2).slice (win0_3.rect t)).set ↔ _
  rw [View.set_slice_whole, Rect.mem_set_unit]
  exact Iff.rfl

/-- The one block is the whole array. -/
theorem cover (i : S1600x640.Idx) :
    ∃ t : Fin cfg0.N, (cfg0.win 3).flush t = true ∧ i ∈ ((cfg0.win 3).blk t).view.set := by
  refine ⟨t0_0, flush0_3 t0_0, ?_⟩
  rw [mem_blk]
  obtain ⟨e00, e01, e10, e11, e20, e30, e31⟩ := index_zero t0_0
  intro a
  match a with
  | ⟨0, _⟩ =>
    show win0_3.index t0_0 (0 : Fin 2) * 1600 ≤ (i 0).val ∧ (i 0).val < win0_3.index t0_0 (0 : Fin 2) * 1600 + 1600
    have h : (i 0).val < 1600 := (i 0).isLt; omega
  | ⟨1, _⟩ =>
    show win0_3.index t0_0 (1 : Fin 2) * 640 ≤ (i 1).val ∧ (i 1).val < win0_3.index t0_0 (1 : Fin 2) * 640 + 640
    have h : (i 1).val < 640 := (i 1).isLt; omega

/-- The output array after the launch. -/
theorem final (c : Dev nD) : (dat0 V c).arrAt 3 cfg0.N = out V c :=
  (dat0 V c).arrAt_eq_of_cover 3 (out V c) (fun t _ => flushed_eq V c t) cover

end Cert.KernelIdeal.EncLaunch

end
-- ==== Proof.PredLaunch.lean ====
/-
  The predictor projection's launch: its output array after the launch.

  The grid is one point and every window's block is its whole array, so the array the launch writes is what the body
  stores, read at the whole input arrays as the launch finds them: entry `(r, q)` is
  `Σ_d x[r, d] · w[d, q] + bias[q]` of the launch's operands `x` (`main_v1`), `w` (`main_arg4`), `bias` (`main_arg5`).
-/
import proofs.«164637_j3582002725423_1_alg».proof.Proof.Gen.KernelIdeal.Frame
import proofs.«164637_j3582002725423_1_alg».proof.Proof.Projection
import proofs.«164637_j3582002725423_1_alg».proof.Proof.Spec
import Idealize.ShloMosaic.Lib.Pipeline.Value
import Idealize.ShloMosaic.Lib.ValueIdx

set_option maxRecDepth 16384

noncomputable section

namespace Cert.KernelIdeal.PredLaunch

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-- The array the launch leaves: the dense layer of the operands as the launch finds them. -/
def out (c : Dev nD) : S800x640.Idx → EReal :=
  fun i => Cert.Joint.dense (V c main_v1) (V c main_arg4) (V c main_arg5) (i 0) (i 1)

theorem out_apply (c : Dev nD) (r : Fin 800) (q : Fin 640) :
    out V c (ix2 r q) = Cert.Joint.dense (V c main_v1) (V c main_arg4) (V c main_arg5) r q := rfl

/-- At the one grid point every window's block index is zero on every axis. -/
theorem index_zero : ∀ t : Fin cfg1.N, win1_0.index t (0 : Fin 2) = 0 ∧ win1_0.index t (1 : Fin 2) = 0
    ∧ win1_1.index t (0 : Fin 2) = 0 ∧ win1_1.index t (1 : Fin 2) = 0 ∧ win1_2.index t (0 : Fin 1) = 0
    ∧ win1_3.index t (0 : Fin 2) = 0 ∧ win1_3.index t (1 : Fin 2) = 0 :=
  (by decide +kernel : ∀ t : Fin grid1.N, _)

/-- What the one point writes back is the whole of `out`. -/
theorem flushed_eq (c : Dev nD) (t : Fin cfg1.N) :
    (dat1 V c).flushed 3 t = ((cfg1.win 3).blk t).view.read (Elt Ideal) (out V c) := by
  show (cfg1.win 3).cut (grid1.coords t) ((dat1 V c).after 3 t) = _
  rw [after1_3]
  unfold out1_3
  rw [View.canon_unit_zero zero2]
  simp only [View.ld_unit_zero (S := S800x640) zero2, View.ld_unit_zero (S := S640x640) zero2,
    View.ld_unit_zero (S := S640) zero1]
  obtain ⟨e00, e01, e10, e11, e20, e30, e31⟩ := index_zero t
  funext j
  obtain ⟨r, q, rfl⟩ : ∃ (r : Fin 800) (q : Fin 640), j = ix2 r q := ⟨j 0, j 1, eq_ix2 j⟩
  have he : ((cfg1.win 3).blk t).view.emb (ix2 r q) = ix2 r q := funext fun a => Fin.ext (by
    match a with
    | ⟨0, _⟩ => show win1_3.index t (0 : Fin 2) * 800 + 1 * r.val = r.val; omega
    | ⟨1, _⟩ => show win1_3.index t (1 : Fin 2) * 640 + 1 * q.val = q.val; omega)
  show k1_pay1 (iblk1 V c 0 t) (iblk1 V c 1 t) (iblk1 V c 2 t) (ix2 r q) = out V c (((cfg1.win 3).blk t).view.emb (ix2 r q))
  rw [he, out_apply, Projection.pred_apply]
  unfold Cert.Joint.dense
  have h0 : ∀ d : Fin 640, iblk1 V c 0 t (ix2 r d) = V c main_v1 (ix2 r d) := fun d => by
    show V c main_v1 (((cfg1.win 0).blk t).view.emb (ix2 r d)) = V c main_v1 (ix2 r d)
    refine congrArg _ (funext fun a => Fin.ext ?_)
    match a with
    | ⟨0, _⟩ => show win1_0.index t (0 : Fin 2) * 800 + 1 * r.val = r.val; omega
    | ⟨1, _⟩ => show win1_0.index t (1 : Fin 2) * 640 + 1 * d.val = d.val; omega
  have h1 : ∀ d : Fin 640, iblk1 V c 1 t (ix2 d q) = V c main_arg4 (ix2 d q) := fun d => by
    show V c main_arg4 (((cfg1.win 1).blk t).view.emb (ix2 d q)) = V c main_arg4 (ix2 d q)
    refine congrArg _ (funext fun a => Fin.ext ?_)
    match a with
    | ⟨0, _⟩ => show win1_1.index t (0 : Fin 2) * 640 + 1 * d.val = d.val; omega
    | ⟨1, _⟩ => show win1_1.index t (1 : Fin 2) * 640 + 1 * q.val = q.val; omega
  have h2 : iblk1 V c 2 t (ix1 q) = V c main_arg5 (ix1 q) := by
    show V c main_arg5 (((cfg1.win 2).blk t).view.emb (ix1 q)) = V c main_arg5 (ix1 q)
    refine congrArg _ (funext fun a => Fin.ext ?_)
    match a with
    | ⟨0, _⟩ => show win1_2.index t (0 : Fin 1) * 640 + 1 * q.val = q.val; omega
  rw [h2]
  exact congrArg (· + V c main_arg5 (ix1 q)) (Finset.sum_congr rfl fun d _ => by rw [h0 d, h1 d])

/-- An index of the array is in the point's block iff each coordinate is in the block's range on its axis. -/
theorem mem_blk (t : Fin cfg1.N) (i : S800x640.Idx) :
    i ∈ ((cfg1.win 3).blk t).view.set ↔ ∀ a : Fin 2, win1_3.index t a * S800x640.size a ≤ (i a).val
      ∧ (i a).val < win1_3.index t a * S800x640.size a + S800x640.size a := by
  show i ∈ ((View.whole main_v4).slice (win1_3.rect t)).set ↔ _
  rw [View.set_slice_whole, Rect.mem_set_unit]
  exact Iff.rfl

/-- The one block is the whole array. -/
theorem cover (i : S800x640.Idx) :
    ∃ t : Fin cfg1.N, (cfg1.win 3).flush t = true ∧ i ∈ ((cfg1.win 3).blk t).view.set := by
  refine ⟨t1_0, flush1_3 t1_0, ?_⟩
  rw [mem_blk]
  obtain ⟨e00, e01, e10, e11, e20, e30, e31⟩ := index_zero t1_0
  intro a
  match a with
  | ⟨0, _⟩ =>
    show win1_3.index t1_0 (0 : Fin 2) * 800 ≤ (i 0).val ∧ (i 0).val < win1_3.index t1_0 (0 : Fin 2) * 800 + 800
    have h : (i 0).val < 800 := (i 0).isLt; omega
  | ⟨1, _⟩ =>
    show win1_3.index t1_0 (1 : Fin 2) * 640 ≤ (i 1).val ∧ (i 1).val < win1_3.index t1_0 (1 : Fin 2) * 640 + 640
    have h : (i 1).val < 640 := (i 1).isLt; omega

/-- The output array after the launch. -/
theorem final (c : Dev nD) : (dat1 V c).arrAt 3 cfg1.N = out V c :=
  (dat1 V c).arrAt_eq_of_cover 3 (out V c) (fun t _ => flushed_eq V c t) cover

end Cert.KernelIdeal.PredLaunch

end
-- ==== Proof.LibMergeAxes.lean ====
/-
  Row-major re-layouts and broadcasts of small-rank arrays, each read at an index written by coordinates.

  * Two leading axes merged: an `[a, b, c]` array seen as `[n, c]` with `n = a · b` has row `p · b + u` equal to the
    operand's `(p, u, ·)`; and the same the other way round, one leading axis of extent `n` split as `(a, b)`.
  * A unit axis put in the middle: `[a, c]` seen as `[a, 1, c]`.
  * A rank-3 array with a unit axis broadcast along it: `[a, 1, c]` to `[a, b, c]` repeats every `(p, ·)` over `u`;
    `[1, b, c]` to `[a, b, c]` repeats the one slab over `p`.
-/
import Idealize.ShloMosaic.Lib.Pipeline.Value
import Idealize.ShloMosaic.Lib.ValueLayout
import Idealize.ShloMosaic.Lib.ValueIdx

noncomputable section

namespace Cert.MergeAxes

open Idealize.ShloMosaic Idealize.ShloMosaic.ValueIdx

variable {α : Type}

/-- An `[a, b, c]` array re-laid as `[n, c]` reads, at row `r = p · b + u` and column `j`, the operand at `(p, u, j)`. -/
theorem shapeCast_abc_nc_apply {a b c n : ℕ} (x : (⟨3, ![a, b, c]⟩ : Shape).Idx → α)
    (h : (⟨3, ![a, b, c]⟩ : Shape).ShapeCasts ⟨2, ![n, c]⟩) (r : Fin n) (j : Fin c) (p : Fin a) (u : Fin b)
    (hr : r.val = p.val * b + u.val) :
    shapeCast ⟨2, ![n, c]⟩ x h (ix2 r j) = x (ix3 p u j) :=
  shapeCast_apply x h _ _ (by
    rw [Shape.rowMajor_val_three, Shape.rowMajor_val_two]
    show (p.val * b + u.val) * c + j.val = r.val * c + j.val
    rw [hr])

/-- An `[n, c]` array re-laid as `[a, b, c]` reads, at `(p, u, j)`, the operand's row `r = p · b + u` at column `j`. -/
theorem shapeCast_nc_abc_apply {a b c n : ℕ} (x : (⟨2, ![n, c]⟩ : Shape).Idx → α)
    (h : (⟨2, ![n, c]⟩ : Shape).ShapeCasts ⟨3, ![a, b, c]⟩) (p : Fin a) (u : Fin b) (j : Fin c) (r : Fin n)
    (hr : r.val = p.val * b + u.val) :
    shapeCast ⟨3, ![a, b, c]⟩ x h (ix3 p u j) = x (ix2 r j) :=
  shapeCast_apply x h _ _ (by
    rw [Shape.rowMajor_val_three, Shape.rowMajor_val_two]
    show r.val * c + j.val = (p.val * b + u.val) * c + j.val
    rw [hr])

/-- An `[a, c]` array re-laid as `[a, 1, c]` reads, at `(p, z, j)`, the operand at `(p, j)`, whatever the unit coordinate. -/
theorem shapeCast_ac_a1c_apply {a c : ℕ} (x : (⟨2, ![a, c]⟩ : Shape).Idx → α)
    (h : (⟨2, ![a, c]⟩ : Shape).ShapeCasts ⟨3, ![a, 1, c]⟩) (p : Fin a) (z : Fin 1) (j : Fin c) :
    shapeCast ⟨3, ![a, 1, c]⟩ x h (ix3 p z j) = x (ix2 p j) :=
  shapeCast_apply x h _ _ (by
    have hz : z.val = 0 := by omega
    rw [Shape.rowMajor_val_three, Shape.rowMajor_val_two]
    show p.val * c + j.val = (p.val * 1 + z.val) * c + j.val
    rw [hz, Nat.mul_one, Nat.add_zero])

/-- An `[a, 1, c]` array broadcast to `[a, b, c]` reads, at `(p, u, j)`, the operand at `(p, 0, j)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (u : Fin b) (j : Fin c) :
    broadcastTo ⟨3, ![a, b, c]⟩ v h (ix3 p u j) = v (ix3 p (0 : Fin 1) j) := by
  refine broadcastTo_apply v h (ix3 p u j) (ix3 p (0 : Fin 1) j) fun ax => ?_
  match ax with
  | ⟨0, _⟩ =>
    show p.val = if a = 1 then 0 else p.val
    split
    · have := p.isLt; omega
    · rfl
  | ⟨1, _⟩ => rfl
  | ⟨2, _⟩ =>
    show j.val = if c = 1 then 0 else j.val
    split
    · have := j.isLt; omega
    · rfl

/-- A `[1, b, c]` array broadcast to `[a, b, c]` reads, at `(p, u, j)`, the operand at `(0, u, j)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (u : Fin b) (j : Fin c) :
    broadcastTo ⟨3, ![a, b, c]⟩ v h (ix3 p u j) = v (ix3 (0 : Fin 1) u j) := by
  refine broadcastTo_apply v h (ix3 p u j) (ix3 (0 : Fin 1) u j) fun ax => ?_
  match ax with
  | ⟨0, _⟩ => rfl
  | ⟨1, _⟩ =>
    show u.val = if b = 1 then 0 else u.val
    split
    · have := u.isLt; omega
    · rfl
  | ⟨2, _⟩ =>
    show j.val = if c = 1 then 0 else j.val
    split
    · have := j.isLt; omega
    · rfl

end Cert.MergeAxes

end
-- ==== Proof.JointBody.lean ====
/-
  The joint kernel at an index.

  The body holds one `[1, 40, 640]` block `e` of projected encoder frames, one `[1, 100, 640]` block `g` of projected
  predictor steps, the `[640, 1024]` output weights `w` and the `[1024]` bias `c`.  It repeats every frame over the 100
  steps and every step over the 40 frames, adds, takes the hyperbolic tangent, lays the `[40, 100, 640]` result out as
  4000 rows (row `p · 100 + u`), multiplies by `w` into a zero accumulator, adds the bias row, and lays the 4000 rows
  out again as `[1, 40, 100, 1024]`.  So entry `(·, p, u, v)` of what it stores is
  `Σ_j tanh (e[0, p, j] + g[0, u, j]) · w[j, v] + c[v]`; the changes of float format are the identity.
-/
import proofs.«164637_j3582002725423_1_alg».proof.Proof.Gen.KernelIdeal.Skeleton
import proofs.«164637_j3582002725423_1_alg».proof.Proof.LibPlainProduct
import proofs.«164637_j3582002725423_1_alg».proof.Proof.LibMergeAxes
import Idealize.ShloMosaic.Lib.ValueLayout
import Idealize.ShloMosaic.Lib.Pipeline.Value
import Idealize.ShloMosaic.Lib.ValueIdx
import Idealize.ShloMosaic.PureOps.Ideal.Laws

noncomputable section

namespace Cert.KernelIdeal.JointBody

open Cert.KernelIdeal Cert.KernelIdeal.Gen Idealize.ShloMosaic Idealize.ShloMosaic.ValueIdx

/-- The hyperbolic tangent of an array, read at an index. -/
theorem tanh_apply {s : Shape} {φ : FTy} (a : FVec Ideal s φ) (i : s.Idx) : tanh a i = Ideal.tanh (a i) := rfl

/-- The tangent stage, laid out as 4000 rows: row `p · 100 + u`, column `j`. -/
theorem tanh_rows_apply (x0 : Vec Ideal S1x40x640 .bf16) (x1 : Vec Ideal S1x100x640 .bf16)
    (p : Fin 40) (u : Fin 100) (j : Fin 640) (r : Fin 4000) (hr : r.val = p.val * 100 + u.val) :
    (shapeCast S4000x640 (truncf .bf16 (tanh (addf
        (broadcastTo S40x100x640 (extf .f32 (shapeCast S40x1x640 (shapeCast S40x640 x0 shapeCasts_S1x40x640_S40x640) shapeCasts_S40x640_S40x1x640) bitsLt_bf16_f32) broadcasts_S40x1x640_S40x100x640)
        (broadcastTo S40x100x640 (extf .f32 (shapeCast S1x100x640 (shapeCast S100x640 x1 shapeCasts_S1x100x640_S100x640) shapeCasts_S100x640_S1x100x640) bitsLt_bf16_f32) broadcasts_S1x100x640_S40x100x640)))
        bitsLt_bf16_f32) shapeCasts_S40x100x640_S4000x640 : FVec Ideal S4000x640 .bf16) (ix2 r j)
      = Ideal.tanh (x0 (ix3 (0 : Fin 1) p j) + x1 (ix3 (0 : Fin 1) u j)) := by
  refine (Cert.MergeAxes.shapeCast_abc_nc_apply _ _ r j p u hr).trans ?_
  rw [truncf_apply, tanh_apply, addf_apply, Cert.MergeAxes.broadcastTo_a1c_abc_apply,
    Cert.MergeAxes.broadcastTo_1bc_abc_apply, extf_apply, extf_apply, Cert.MergeAxes.shapeCast_ac_a1c_apply,
    shapeCast_1ab_ab_apply, shapeCast_shapeCast]

/-- The joint kernel's stored block at `(z, p, u, v)`. -/
theorem joint_apply (x0 : Vec Ideal S1x40x640 .bf16) (x1 : Vec Ideal S1x100x640 .bf16) (x2 : Vec Ideal S640x1024 .bf16)
    (x3 : Vec Ideal S1024 .f32) (z : Fin 1) (p : Fin 40) (u : Fin 100) (v : Fin 1024) :
    k2_pay1 (F := Ideal) x0 x1 x2 x3 (ix4 z p u v)
      = (∑ j : Fin 640, Ideal.tanh (x0 (ix3 (0 : Fin 1) p j) + x1 (ix3 (0 : Fin 1) u j)) * x2 (ix2 j v)) + x3 (ix1 v) := by
  unfold k2_pay1
  have hlt : p.val * 100 + u.val < 4000 := by have := p.isLt; have := u.isLt; omega
  refine (shapeCast_abc_1abc_apply _ _ z p u v).trans ?_
  refine (Cert.MergeAxes.shapeCast_nc_abc_apply _ _ p u v (⟨p.val * 100 + u.val, hlt⟩ : Fin 4000) rfl).trans ?_
  rw [addf_apply, broadcastTo_1b_ab_apply, shapeCast_a_1a_apply, shapeCast_self]
  refine congrArg (· + x3 (ix1 v)) ?_
  refine (Cert.PlainProduct.matmul_nn_apply (φ₁ := .bf16) (φ₂ := .bf16) _ none _ x2
    (⟨p.val * 100 + u.val, hlt⟩ : Fin 4000) v).trans ?_
  refine Finset.sum_congr rfl fun j _ => ?_
  exact congrArg (· * x2 (ix2 j v)) (tanh_rows_apply x0 x1 p u j _ rfl)

end Cert.KernelIdeal.JointBody

end
-- ==== Proof.JointLaunch.lean ====
/-
  The joint kernel's launch: its output array after the launch.

  The grid is `8 × 5`: point `(b, s)` reads frames `40 s … 40 s + 39` of batch entry `b` of the projected encoder array,
  all 100 steps of batch entry `b` of the projected predictor array, the whole output weights and bias, and writes the
  `[1, 40, 100, 1024]` block at `(b, 40 s, 0, 0)` of the result.  The blocks tile the result, and what each point writes
  is its block of ONE function of the whole operands as the launch finds them: entry `(b, t, u, v)` is
  `Σ_j tanh (E[b, t, j] + P[b, u, j]) · W[j, v] + bias[v]`.
-/
import proofs.«164637_j3582002725423_1_alg».proof.Proof.Gen.KernelIdeal.Frame
import proofs.«164637_j3582002725423_1_alg».proof.Proof.JointBody
import proofs.«164637_j3582002725423_1_alg».proof.Proof.Spec
import Idealize.ShloMosaic.Lib.Pipeline.Value
import Idealize.ShloMosaic.Lib.ValueIdx

set_option maxRecDepth 16384

noncomputable section

namespace Cert.KernelIdeal.JointLaunch

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem zero4 : (![0, 0, 0, 0] : Fin 4 → Nat) = fun _ => 0 := funext fun a => by fin_cases a <;> rfl
theorem zero3 : (![0, 0, 0] : Fin 3 → Nat) = fun _ => 0 := funext fun a => by fin_cases a <;> rfl
theorem zero2 : (![0, 0] : Fin 2 → Nat) = fun _ => 0 := funext fun a => by fin_cases a <;> rfl
theorem zero1 : (![0] : Fin 1 → Nat) = fun _ => 0 := funext fun a => by fin_cases a; rfl

/-- The array the launch leaves: the joint network of the operands as the launch finds them. -/
def out (c : Dev nD) : S8x200x100x1024.Idx → EReal :=
  fun i => Cert.Joint.joint (V c main_v3) (V c main_v5) (V c main_v6) (V c main_arg7) (i 0) (i 1) (i 2) (i 3)

theorem out_apply (c : Dev nD) (b : Fin 8) (t : Fin 200) (u : Fin 100) (v : Fin 1024) :
    out V c (ix4 b t u v) = Cert.Joint.joint (V c main_v3) (V c main_v5) (V c main_v6) (V c main_arg7) b t u v := rfl

/-- The printed index maps over the grid: the encoder block moves with the output block on the batch and frame axes, the
    predictor block on the batch axis only, the weights and the bias stay, and the output's block indices stay in range. -/
theorem index_facts : ∀ t : Fin cfg2.N,
    win2_0.index t (0 : Fin 3) = win2_4.index t (0 : Fin 4) ∧ win2_0.index t (1 : Fin 3) = win2_4.index t (1 : Fin 4)
    ∧ win2_0.index t (2 : Fin 3) = 0
    ∧ win2_1.index t (0 : Fin 3) = win2_4.index t (0 : Fin 4) ∧ win2_1.index t (1 : Fin 3) = 0 ∧ win2_1.index t (2 : Fin 3) = 0
    ∧ win2_2.index t (0 : Fin 2) = 0 ∧ win2_2.index t (1 : Fin 2) = 0 ∧ win2_3.index t (0 : Fin 1) = 0
    ∧ win2_4.index t (2 : Fin 4) = 0 ∧ win2_4.index t (3 : Fin 4) = 0
    ∧ win2_4.index t (0 : Fin 4) ≤ 7 ∧ win2_4.index t (1 : Fin 4) ≤ 4 :=
  (by decide +kernel : ∀ t : Fin grid2.N, _)

/-- Every block of the result is some point's. -/
theorem index_onto : ∀ (q0 : Fin 8) (q1 : Fin 5), ∃ t : Fin cfg2.N, win2_4.index t = ![q0.val, q1.val, 0, 0] :=
  (by decide +kernel : ∀ (q0 : Fin 8) (q1 : Fin 5), ∃ t : Fin grid2.N, win2_4.index t = ![q0.val, q1.val, 0, 0])

/-- What point `t` writes back is block `t` of `out`. -/
theorem flushed_eq (c : Dev nD) (t : Fin cfg2.N) :
    (dat2 V c).flushed 4 t = ((cfg2.win 4).blk t).view.read (Elt Ideal) (out V c) := by
  show (cfg2.win 4).cut (grid2.coords t) ((dat2 V c).after 4 t) = _
  rw [after2_4]
  unfold out2_4
  rw [View.canon_unit_zero zero4]
  simp only [View.ld_unit_zero (S := S1x40x640) zero3, View.ld_unit_zero (S := S1x100x640) zero3,
    View.ld_unit_zero (S := S640x1024) zero2, View.ld_unit_zero (S := S1024) zero1]
  obtain ⟨e00, e01, e02, e10, e11, e12, e20, e21, e30, e42, e43, b40, b41⟩ := index_facts t
  funext j
  obtain ⟨z, p, u, v, rfl⟩ : ∃ (z : Fin 1) (p : Fin 40) (u : Fin 100) (v : Fin 1024), j = ix4 z p u v :=
    ⟨j 0, j 1, j 2, j 3, eq_ix4 j⟩
  have hz : z.val = 0 := by omega
  have hp := p.isLt
  have hb : win2_4.index t (0 : Fin 4) * 1 + 1 * z.val < 8 := by omega
  have ht : win2_4.index t (1 : Fin 4) * 40 + 1 * p.val < 200 := by omega
  have he : ((cfg2.win 4).blk t).view.emb (ix4 z p u v)
      = ix4 (⟨win2_4.index t (0 : Fin 4) * 1 + 1 * z.val, hb⟩ : Fin 8) (⟨win2_4.index t (1 : Fin 4) * 40 + 1 * p.val, ht⟩ : Fin 200) u v :=
    funext fun a => Fin.ext (by
      match a with
      | ⟨0, _⟩ => rfl
      | ⟨1, _⟩ => rfl
      | ⟨2, _⟩ => show win2_4.index t (2 : Fin 4) * 100 + 1 * u.val = u.val; omega
      | ⟨3, _⟩ => show win2_4.index t (3 : Fin 4) * 1024 + 1 * v.val = v.val; omega)
  show k2_pay1 (iblk2 V c 0 t) (iblk2 V c 1 t) (iblk2 V c 2 t) (iblk2 V c 3 t) (ix4 z p u v)
    = out V c (((cfg2.win 4).blk t).view.emb (ix4 z p u v))
  rw [he, out_apply, JointBody.joint_apply]
  unfold Cert.Joint.joint
  have h0 : ∀ k : Fin 640, iblk2 V c 0 t (ix3 (0 : Fin 1) p k)
      = V c main_v3 (ix3 (⟨win2_4.index t (0 : Fin 4) * 1 + 1 * z.val, hb⟩ : Fin 8) (⟨win2_4.index t (1 : Fin 4) * 40 + 1 * p.val, ht⟩ : Fin 200) k) := fun k => by
    show V c main_v3 (((cfg2.win 0).blk t).view.emb (ix3 (0 : Fin 1) p k)) = _
    refine congrArg _ (funext fun a => Fin.ext ?_)
    match a with
    | ⟨0, _⟩ => show win2_0.index t (0 : Fin 3) * 1 + 1 * 0 = win2_4.index t (0 : Fin 4) * 1 + 1 * z.val; omega
    | ⟨1, _⟩ => show win2_0.index t (1 : Fin 3) * 40 + 1 * p.val = win2_4.index t (1 : Fin 4) * 40 + 1 * p.val; omega
    | ⟨2, _⟩ => show win2_0.index t (2 : Fin 3) * 640 + 1 * k.val = k.val; omega
  have h1 : ∀ k : Fin 640, iblk2 V c 1 t (ix3 (0 : Fin 1) u k)
      = V c main_v5 (ix3 (⟨win2_4.index t (0 : Fin 4) * 1 + 1 * z.val, hb⟩ : Fin 8) u k) := fun k => by
    show V c main_v5 (((cfg2.win 1).blk t).view.emb (ix3 (0 : Fin 1) u k)) = _
    refine congrArg _ (funext fun a => Fin.ext ?_)
    match a with
    | ⟨0, _⟩ => show win2_1.index t (0 : Fin 3) * 1 + 1 * 0 = win2_4.index t (0 : Fin 4) * 1 + 1 * z.val; omega
    | ⟨1, _⟩ => show win2_1.index t (1 : Fin 3) * 100 + 1 * u.val = u.val; omega
    | ⟨2, _⟩ => show win2_1.index t (2 : Fin 3) * 640 + 1 * k.val = k.val; omega
  have h2 : ∀ k : Fin 640, iblk2 V c 2 t (ix2 k v) = V c main_v6 (ix2 k v) := fun k => by
    show V c main_v6 (((cfg2.win 2).blk t).view.emb (ix2 k v)) = _
    refine congrArg _ (funext fun a => Fin.ext ?_)
    match a with
    | ⟨0, _⟩ => show win2_2.index t (0 : Fin 2) * 640 + 1 * k.val = k.val; omega
    | ⟨1, _⟩ => show win2_2.index t (1 : Fin 2) * 1024 + 1 * v.val = v.val; omega
  have h3 : iblk2 V c 3 t (ix1 v) = V c main_arg7 (ix1 v) := by
    show V c main_arg7 (((cfg2.win 3).blk t).view.emb (ix1 v)) = _
    refine congrArg _ (funext fun a => Fin.ext ?_)
    match a with
    | ⟨0, _⟩ => show win2_3.index t (0 : Fin 1) * 1024 + 1 * v.val = v.val; omega
  rw [h3]
  exact congrArg (· + V c main_arg7 (ix1 v)) (Finset.sum_congr rfl fun k _ => by rw [h0 k, h1 k, h2 k])

/-- An index of the result is in point `t`'s block iff each coordinate is in the block's range on its axis. -/
theorem mem_blk (t : Fin cfg2.N) (i : S8x200x100x1024.Idx) :
    i ∈ ((cfg2.win 4).blk t).view.set ↔ ∀ a : Fin 4, win2_4.index t a * S1x40x100x1024.size a ≤ (i a).val
      ∧ (i a).val < win2_4.index t a * S1x40x100x1024.size a + S1x40x100x1024.size a := by
  show i ∈ ((View.whole main_v7).slice (win2_4.rect t)).set ↔ _
  rw [View.set_slice_whole, Rect.mem_set_unit]
  exact Iff.rfl

/-- The blocks tile the result: entry `(b, t, ·, ·)` is in the block of point `(b, t / 40)`. -/
theorem cover (i : S8x200x100x1024.Idx) :
    ∃ t : Fin cfg2.N, (cfg2.win 4).flush t = true ∧ i ∈ ((cfg2.win 4).blk t).view.set := by
  have hi0 : (i 0).val < 8 := (i 0).isLt
  have hi1 : (i 1).val < 200 := (i 1).isLt
  have hi2 : (i 2).val < 100 := (i 2).isLt
  have hi3 : (i 3).val < 1024 := (i 3).isLt
  obtain ⟨t, ht⟩ := index_onto ⟨(i 0).val, hi0⟩ ⟨(i 1).val / 40, by omega⟩
  have q0 : win2_4.index t (0 : Fin 4) = (i 0).val := congrFun ht 0
  have q1 : win2_4.index t (1 : Fin 4) = (i 1).val / 40 := congrFun ht 1
  have q2 : win2_4.index t (2 : Fin 4) = 0 := congrFun ht 2
  have q3 : win2_4.index t (3 : Fin 4) = 0 := congrFun ht 3
  refine ⟨t, flush2_4 t, ?_⟩
  rw [mem_blk]
  intro a
  match a with
  | ⟨0, _⟩ =>
    show win2_4.index t (0 : Fin 4) * 1 ≤ (i 0).val ∧ (i 0).val < win2_4.index t (0 : Fin 4) * 1 + 1; omega
  | ⟨1, _⟩ =>
    show win2_4.index t (1 : Fin 4) * 40 ≤ (i 1).val ∧ (i 1).val < win2_4.index t (1 : Fin 4) * 40 + 40; omega
  | ⟨2, _⟩ =>
    show win2_4.index t (2 : Fin 4) * 100 ≤ (i 2).val ∧ (i 2).val < win2_4.index t (2 : Fin 4) * 100 + 100; omega
  | ⟨3, _⟩ =>
    show win2_4.index t (3 : Fin 4) * 1024 ≤ (i 3).val ∧ (i 3).val < win2_4.index t (3 : Fin 4) * 1024 + 1024; omega

/-- The result array after the launch. -/
theorem final (c : Dev nD) : (dat2 V c).arrAt 4 cfg2.N = out V c :=
  (dat2 V c).arrAt_eq_of_cover 4 (out V c) (fun t _ => flushed_eq V c t) cover

end Cert.KernelIdeal.JointLaunch

end
-- ==== Proof.Chain.lean ====
/-
  The idealized kernel's result at the last boundary is the specification.

  Followed back through the boundaries: the result buffer holds what the joint launch leaves, a function of the launch's
  operands; those are the two projected arrays re-laid from `[1600, 640]` and `[800, 640]` to `[8, 200, 640]` and
  `[8, 100, 640]`, the output weights with their float format changed (the identity on the extended reals), and the bias;
  each projected array is what its launch leaves, the dense layer of the argument re-laid as rows, the weights and the bias.
  Row `b · 200 + t` of the re-laid encoder argument is its `(b, t, ·)`, so the projected encoder array at `(b, t, j)` is
  `Σ_d enc[b, t, d] · W_enc[d, j] + b_enc[j]`, and likewise for the predictor with 100 steps.
-/
import proofs.«164637_j3582002725423_1_alg».proof.Proof.Gen.KernelIdeal.Frame
import proofs.«164637_j3582002725423_1_alg».proof.Proof.KernelRun
import proofs.«164637_j3582002725423_1_alg».proof.Proof.EncLaunch
import proofs.«164637_j3582002725423_1_alg».proof.Proof.PredLaunch
import proofs.«164637_j3582002725423_1_alg».proof.Proof.JointLaunch
import proofs.«164637_j3582002725423_1_alg».proof.Proof.LibMergeAxes
import proofs.«164637_j3582002725423_1_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg)

/-! ## The encoder projection's operands and result -/

theorem enc_rows (c : Dev nD) :
    V1 m ρ c main_v0 = shapeCast S1600x512 (m ((c : Thread nD τ).loc main_arg0)) shapeCasts_S8x200x512_S1600x512 := by
  show StableHlo.after hostOps0 (W0 m ρ c) (Proc.devRef .tc main_v0) = _
  after_results
  rfl

theorem enc_weights (c : Dev nD) : V1 m ρ c main_arg2 = m ((c : Thread nD τ).loc main_arg2) := by
  show StableHlo.after hostOps0 (W0 m ρ c) (Proc.devRef .tc main_arg2) = _
  after_results

theorem enc_bias (c : Dev nD) : V1 m ρ c main_arg3 = m ((c : Thread nD τ).loc main_arg3) := by
  show StableHlo.after hostOps0 (W0 m ρ c) (Proc.devRef .tc main_arg3) = _
  after_results

/-- After the first launch the buffer `main_v2` holds the encoder's dense layer. -/
theorem enc_out (c : Dev nD) : W2 m ρ c (Proc.devRef .tc main_v2) = EncLaunch.out (V1 m ρ) c :=
  (W2_arr m ρ c 3).trans (EncLaunch.final (V1 m ρ) c)

/-- The projected encoder array at `(b, t, j)`, as the joint launch finds it. -/
theorem enc_proj (c : Dev nD) (b : Fin 8) (t : Fin 200) (j : Fin 640) :
    V5 m ρ c main_v3 (ix3 b t j)
      = Cert.Joint.dense3 (m ((c : Thread nD τ).loc main_arg0)) (m ((c : Thread nD τ).loc main_arg2))
          (m ((c : Thread nD τ).loc main_arg3)) b t j := by
  have e : V5 m ρ c main_v3 = shapeCast S8x200x640 (W2 m ρ c (Proc.devRef .tc main_v2)) shapeCasts_S1600x640_S8x200x640 := by
    have e5 : W5 m ρ c (Proc.devRef .tc main_v3) = W4 m ρ c (Proc.devRef .tc main_v3) := by
      show StableHlo.after hostOps2 (W4 m ρ c) (Proc.devRef .tc main_v3) = _
      after_results
    have e4 : W4 m ρ c (Proc.devRef .tc main_v3) = W3 m ρ c (Proc.devRef .tc main_v3) := W4_of_ne m ρ c main_v3 (by decide)
    show W5 m ρ c (Proc.devRef .tc main_v3) = _
    rw [e5, e4]
    show StableHlo.after hostOps1 (W2 m ρ c) (Proc.devRef .tc main_v3) = _
    after_results
    rfl
  have hlt : b.val * 200 + t.val < 1600 := by have := b.isLt; have := t.isLt; omega
  rw [e, enc_out]
  refine (Cert.MergeAxes.shapeCast_nc_abc_apply _ _ b t j (⟨b.val * 200 + t.val, hlt⟩ : Fin 1600) rfl).trans ?_
  rw [EncLaunch.out_apply, enc_rows, enc_weights, enc_bias]
  unfold Cert.Joint.dense Cert.Joint.dense3
  refine congrArg (· + m ((c : Thread nD τ).loc main_arg3) (ix1 j)) (Finset.sum_congr rfl fun d _ => ?_)
  exact congrArg (· * m ((c : Thread nD τ).loc main_arg2) (ix2 d j))
    (Cert.MergeAxes.shapeCast_abc_nc_apply _ _ (⟨b.val * 200 + t.val, hlt⟩ : Fin 1600) d b t rfl)

/-! ## The predictor projection's operands and result -/

theorem pred_rows (c : Dev nD) :
    V3 m ρ c main_v1 = shapeCast S800x640 (m ((c : Thread nD τ).loc main_arg1)) shapeCasts_S8x100x640_S800x640 := by
  have e3 : W3 m ρ c (Proc.devRef .tc main_v1) = W2 m ρ c (Proc.devRef .tc main_v1) := by
    show StableHlo.after hostOps1 (W2 m ρ c) (Proc.devRef .tc main_v1) = _
    after_results
  have e2 : W2 m ρ c (Proc.devRef .tc main_v1) = W1 m ρ c (Proc.devRef .tc main_v1) := W2_of_ne m ρ c main_v1 (by decide)
  show W3 m ρ c (Proc.devRef .tc main_v1) = _
  rw [e3, e2]
  show StableHlo.after hostOps0 (W0 m ρ c) (Proc.devRef .tc main_v1) = _
  after_results
  rfl

theorem pred_weights (c : Dev nD) : V3 m ρ c main_arg4 = m ((c : Thread nD τ).loc main_arg4) := by
  have e3 : W3 m ρ c (Proc.devRef .tc main_arg4) = W2 m ρ c (Proc.devRef .tc main_arg4) := by
    show StableHlo.after hostOps1 (W2 m ρ c) (Proc.devRef .tc main_arg4) = _
    after_results
  have e2 : W2 m ρ c (Proc.devRef .tc main_arg4) = W1 m ρ c (Proc.devRef .tc main_arg4) := W2_of_ne m ρ c main_arg4 (by decide)
  show W3 m ρ c (Proc.devRef .tc main_arg4) = _
  rw [e3, e2]
  show StableHlo.after hostOps0 (W0 m ρ c) (Proc.devRef .tc main_arg4) = _
  after_results

theorem pred_bias (c : Dev nD) : V3 m ρ c main_arg5 = m ((c : Thread nD τ).loc main_arg5) := by
  have e3 : W3 m ρ c (Proc.devRef .tc main_arg5) = W2 m ρ c (Proc.devRef .tc main_arg5) := by
    show StableHlo.after hostOps1 (W2 m ρ c) (Proc.devRef .tc main_arg5) = _
    after_results
  have e2 : W2 m ρ c (Proc.devRef .tc main_arg5) = W1 m ρ c (Proc.devRef .tc main_arg5) := W2_of_ne m ρ c main_arg5 (by decide)
  show W3 m ρ c (Proc.devRef .tc main_arg5) = _
  rw [e3, e2]
  show StableHlo.after hostOps0 (W0 m ρ c) (Proc.devRef .tc main_arg5) = _
  after_results

/-- After the second launch the buffer `main_v4` holds the predictor's dense layer. -/
theorem pred_out (c : Dev nD) : W4 m ρ c (Proc.devRef .tc main_v4) = PredLaunch.out (V3 m ρ) c :=
  (W4_arr m ρ c 3).trans (PredLaunch.final (V3 m ρ) c)

/-- The projected predictor array at `(b, u, j)`, as the joint launch finds it. -/
theorem pred_proj (c : Dev nD) (b : Fin 8) (u : Fin 100) (j : Fin 640) :
    V5 m ρ c main_v5 (ix3 b u j)
      = Cert.Joint.dense3 (m ((c : Thread nD τ).loc main_arg1)) (m ((c : Thread nD τ).loc main_arg4))
          (m ((c : Thread nD τ).loc main_arg5)) b u j := by
  have e : V5 m ρ c main_v5 = shapeCast S8x100x640 (W4 m ρ c (Proc.devRef .tc main_v4)) shapeCasts_S800x640_S8x100x640 := by
    show StableHlo.after hostOps2 (W4 m ρ c) (Proc.devRef .tc main_v5) = _
    after_results
    rfl
  have hlt : b.val * 100 + u.val < 800 := by have := b.isLt; have := u.isLt; omega
  rw [e, pred_out]
  refine (Cert.MergeAxes.shapeCast_nc_abc_apply _ _ b u j (⟨b.val * 100 + u.val, hlt⟩ : Fin 800) rfl).trans ?_
  rw [PredLaunch.out_apply, pred_rows, pred_weights, pred_bias]
  unfold Cert.Joint.dense Cert.Joint.dense3
  refine congrArg (· + m ((c : Thread nD τ).loc main_arg5) (ix1 j)) (Finset.sum_congr rfl fun d _ => ?_)
  exact congrArg (· * m ((c : Thread nD τ).loc main_arg4) (ix2 d j))
    (Cert.MergeAxes.shapeCast_abc_nc_apply _ _ (⟨b.val * 100 + u.val, hlt⟩ : Fin 800) d b u rfl)

/-! ## The joint launch's other operands -/

/-- The output weights as the joint launch finds them: the argument, its float format changed. -/
theorem out_weights (c : Dev nD) : V5 m ρ c main_v6 = m ((c : Thread nD τ).loc main_arg6) := by
  have e4 : W4 m ρ c (Proc.devRef .tc main_arg6) = W3 m ρ c (Proc.devRef .tc main_arg6) := W4_of_ne m ρ c main_arg6 (by decide)
  have e3 : W3 m ρ c (Proc.devRef .tc main_arg6) = W2 m ρ c (Proc.devRef .tc main_arg6) := by
    show StableHlo.after hostOps1 (W2 m ρ c) (Proc.devRef .tc main_arg6) = _
    after_results
  have e2 : W2 m ρ c (Proc.devRef .tc main_arg6) = W1 m ρ c (Proc.devRef .tc main_arg6) := W2_of_ne m ρ c main_arg6 (by decide)
  have e1 : W1 m ρ c (Proc.devRef .tc main_arg6) = m ((c : Thread nD τ).loc main_arg6) := by
    show StableHlo.after hostOps0 (W0 m ρ c) (Proc.devRef .tc main_arg6) = _
    after_results
  have e5 : V5 m ρ c main_v6 = truncf (F := Ideal) .bf16 (W4 m ρ c (Proc.devRef .tc main_arg6)) bitsLt_bf16_f32 := by
    show StableHlo.after hostOps2 (W4 m ρ c) (Proc.devRef .tc main_v6) = _
    after_results
  rw [e5, e4, e3, e2, e1]
  rfl

/-- The output bias as the joint launch finds it. -/
theorem out_bias (c : Dev nD) : V5 m ρ c main_arg7 = m ((c : Thread nD τ).loc main_arg7) := by
  have e5 : W5 m ρ c (Proc.devRef .tc main_arg7) = W4 m ρ c (Proc.devRef .tc main_arg7) := by
    show StableHlo.after hostOps2 (W4 m ρ c) (Proc.devRef .tc main_arg7) = _
    after_results
  have e4 : W4 m ρ c (Proc.devRef .tc main_arg7) = W3 m ρ c (Proc.devRef .tc main_arg7) := W4_of_ne m ρ c main_arg7 (by decide)
  have e3 : W3 m ρ c (Proc.devRef .tc main_arg7) = W2 m ρ c (Proc.devRef .tc main_arg7) := by
    show StableHlo.after hostOps1 (W2 m ρ c) (Proc.devRef .tc main_arg7) = _
    after_results
  have e2 : W2 m ρ c (Proc.devRef .tc main_arg7) = W1 m ρ c (Proc.devRef .tc main_arg7) := W2_of_ne m ρ c main_arg7 (by decide)
  have e1 : W1 m ρ c (Proc.devRef .tc main_arg7) = m ((c : Thread nD τ).loc main_arg7) := by
    show StableHlo.after hostOps0 (W0 m ρ c) (Proc.devRef .tc main_arg7) = _
    after_results
  show W5 m ρ c (Proc.devRef .tc main_arg7) = _
  rw [e5, e4, e3, e2, e1]

/-! ## The result -/

/-- The result buffer at the last boundary is the specification of the launch memory's arguments. -/
theorem result (c : Dev nD) :
    W6 m ρ c (Proc.devRef .tc main_v7)
      = Cert.Joint.logits (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  refine ((W6_arr m ρ c 4).trans (JointLaunch.final (V5 m ρ) c)).trans ?_
  funext i
  obtain ⟨b, t, u, v, rfl⟩ : ∃ (b : Fin 8) (t : Fin 200) (u : Fin 100) (v : Fin 1024), i = ix4 b t u v :=
    ⟨i 0, i 1, i 2, i 3, eq_ix4 i⟩
  rw [JointLaunch.out_apply, out_weights, out_bias]
  exact Cert.Joint.logit_eq_joint _ _ _ _ _ _ _ _ _ _ (enc_proj m ρ c) (pred_proj m ρ c) b t u v

/-- The idealized kernel's run: every weakly fair execution terminates, nothing faulting, with the result array at the
    specification of the arguments and the arguments as launched. -/
theorem run : θ_run defs (onTc (τ := τ) (main (F := Ideal))) ⟨m, fun _ => 0, ρ⟩ (fun r => ∀ c : Dev nD,
      r.2.mem ((c.tc : Thread nD τ).loc main_v7)
        = Cert.Joint.logits (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result m ρ c), (h c).2⟩) (Result.run_result (F := Ideal) m ρ)

end Cert.KernelIdeal.Chain

end
-- ==== Proof.RefIsSpec.lean ====
/-
  The reference's result is the specification.

  The reference projects the encoder frames and the predictor steps with two `dot_general`s (a sum over the shared axis at
  the ideal values) plus broadcast biases, repeats the frames over the steps and the steps over the frames by broadcasts, adds,
  takes the hyperbolic tangent, and contracts the last axis against the output weights, plus the broadcast output bias.
  Read at an index `(b, t, u, v)`, operation by operation, that is `Cert.Joint.logit`.
-/
import proofs.«164637_j3582002725423_1_alg».proof.Proof.Gen.ReferenceIdeal.Read
import proofs.«164637_j3582002725423_1_alg».proof.Proof.Spec

noncomputable section

namespace Cert.ReferenceIdeal.RefValue

open Cert.ReferenceIdeal Cert.ReferenceIdeal.Read Idealize.ShloMosaic Idealize.ShloMosaic.ValueIdx

/-- The projected encoder frames: the reference's `%3` at `(b, t, j)`. -/
theorem enc_stage (x0 : (⟨S8x200x512, .f32⟩ : BufTy).Contents (Elt Ideal)) (x2 : (⟨S512x640, .f32⟩ : BufTy).Contents (Elt Ideal))
    (x3 : (⟨S640, .f32⟩ : BufTy).Contents (Elt Ideal)) (b : Fin 8) (t : Fin 200) (j : Fin 640) :
    val_main_v3 (F := Ideal) x0 x2 x3 (ix3 b t j) = Cert.Joint.dense3 x0 x2 x3 b t j := by
  rw [val_main_v3_apply, val_main_v0_apply, val_main_v2_apply, val_main_v1_apply]
  have el : ∀ k : Fin 512, lidx_main_v0 (ix3 b t j) k = ix3 b t k := fun k => funext fun a => Fin.ext (by
    match a with | ⟨0, _⟩ => rfl | ⟨1, _⟩ => rfl | ⟨2, _⟩ => rfl)
  have er : ∀ k : Fin 512, ridx_main_v0 (ix3 b t j) k = ix2 k j := fun k => funext fun a => Fin.ext (by
    match a with | ⟨0, _⟩ => rfl | ⟨1, _⟩ => rfl)
  have eb : idx_main_v1 (idx_main_v2 (ix3 b t j)) = ix1 j := funext fun a => Fin.ext (by
    match a with | ⟨0, _⟩ => rfl)
  simp only [el, er, eb]
  rfl

/-- The projected predictor steps: the reference's `%7` at `(b, u, j)`. -/
theorem pred_stage (x1 : (⟨S8x100x640, .f32⟩ : BufTy).Contents (Elt Ideal)) (x4 : (⟨S640x640, .f32⟩ : BufTy).Contents (Elt Ideal))
    (x5 : (⟨S640, .f32⟩ : BufTy).Contents (Elt Ideal)) (b : Fin 8) (u : Fin 100) (j : Fin 640) :
    val_main_v7 (F := Ideal) x1 x4 x5 (ix3 b u j) = Cert.Joint.dense3 x1 x4 x5 b u j := by
  rw [val_main_v7_apply, val_main_v4_apply, val_main_v6_apply, val_main_v5_apply]
  have el : ∀ k : Fin 640, lidx_main_v4 (ix3 b u j) k = ix3 b u k := fun k => funext fun a => Fin.ext (by
    match a with | ⟨0, _⟩ => rfl | ⟨1, _⟩ => rfl | ⟨2, _⟩ => rfl)
  have er : ∀ k : Fin 640, ridx_main_v4 (ix3 b u j) k = ix2 k j := fun k => funext fun a => Fin.ext (by
    match a with | ⟨0, _⟩ => rfl | ⟨1, _⟩ => rfl)
  have eb : idx_main_v5 (idx_main_v6 (ix3 b u j)) = ix1 j := funext fun a => Fin.ext (by
    match a with | ⟨0, _⟩ => rfl)
  simp only [el, er, eb]
  rfl

/-- The tangent stage: the reference's `%13` at `(b, t, u, j)`. -/
theorem tanh_stage (x0 : (⟨S8x200x512, .f32⟩ : BufTy).Contents (Elt Ideal)) (x1 : (⟨S8x100x640, .f32⟩ : BufTy).Contents (Elt Ideal))
    (x2 : (⟨S512x640, .f32⟩ : BufTy).Contents (Elt Ideal)) (x3 : (⟨S640, .f32⟩ : BufTy).Contents (Elt Ideal))
    (x4 : (⟨S640x640, .f32⟩ : BufTy).Contents (Elt Ideal)) (x5 : (⟨S640, .f32⟩ : BufTy).Contents (Elt Ideal))
    (b : Fin 8) (t : Fin 200) (u : Fin 100) (j : Fin 640) :
    val_main_v13 (F := Ideal) x0 x1 x2 x3 x4 x5 (ix4 b t u j)
      = Ideal.tanh (Cert.Joint.dense3 x0 x2 x3 b t j + Cert.Joint.dense3 x1 x4 x5 b u j) := by
  rw [val_main_v13_apply, val_main_v12_apply, val_main_v10_apply, val_main_v8_apply, val_main_v11_apply, val_main_v9_apply]
  have e8 : idx_main_v8 (idx_main_v10 (ix4 b t u j)) = ix3 b t j := funext fun a => Fin.ext (by
    match a with | ⟨0, _⟩ => rfl | ⟨1, _⟩ => rfl | ⟨2, _⟩ => rfl)
  have e9 : idx_main_v9 (idx_main_v11 (ix4 b t u j)) = ix3 b u j := funext fun a => Fin.ext (by
    match a with | ⟨0, _⟩ => rfl | ⟨1, _⟩ => rfl | ⟨2, _⟩ => rfl)
  rw [e8, e9, enc_stage, pred_stage]
  rfl

/-- The reference's result array is the specification's. -/
theorem result_eq (x0 : (⟨S8x200x512, .f32⟩ : BufTy).Contents (Elt Ideal)) (x1 : (⟨S8x100x640, .f32⟩ : BufTy).Contents (Elt Ideal))
    (x2 : (⟨S512x640, .f32⟩ : BufTy).Contents (Elt Ideal)) (x3 : (⟨S640, .f32⟩ : BufTy).Contents (Elt Ideal))
    (x4 : (⟨S640x640, .f32⟩ : BufTy).Contents (Elt Ideal)) (x5 : (⟨S640, .f32⟩ : BufTy).Contents (Elt Ideal))
    (x6 : (⟨S640x1024, .f32⟩ : BufTy).Contents (Elt Ideal)) (x7 : (⟨S1024, .f32⟩ : BufTy).Contents (Elt Ideal)) :
    val_main_v17 (F := Ideal) x0 x1 x2 x3 x4 x5 x6 x7 = Cert.Joint.logits x0 x1 x2 x3 x4 x5 x6 x7 := by
  funext i
  obtain ⟨b, t, u, v, rfl⟩ : ∃ (b : Fin 8) (t : Fin 200) (u : Fin 100) (v : Fin 1024), i = ix4 b t u v :=
    ⟨i 0, i 1, i 2, i 3, eq_ix4 i⟩
  rw [val_main_v17_apply, val_main_v14_apply, val_main_v16_apply, val_main_v15_apply]
  have el : ∀ k : Fin 640, lidx_main_v14 (ix4 b t u v) k = ix4 b t u k := fun k => funext fun a => Fin.ext (by
    match a with | ⟨0, _⟩ => rfl | ⟨1, _⟩ => rfl | ⟨2, _⟩ => rfl | ⟨3, _⟩ => rfl)
  have er : ∀ k : Fin 640, ridx_main_v14 (ix4 b t u v) k = ix2 k v := fun k => funext fun a => Fin.ext (by
    match a with | ⟨0, _⟩ => rfl | ⟨1, _⟩ => rfl)
  have eb : idx_main_v15 (idx_main_v16 (ix4 b t u v)) = ix1 v := funext fun a => Fin.ext (by
    match a with | ⟨0, _⟩ => rfl)
  simp only [el, er, eb, tanh_stage]
  rfl

end Cert.ReferenceIdeal.RefValue

end
-- ==== Proof.lean ====
/-
  The transducer joint network: a Pallas kernel in three launches against its jnp reference, over the extended reals.

  Both programs compute, for a batch entry `b`, an encoder frame `t`, a predictor step `u` and a vocabulary entry `v`,

    logit b t u v = Σ_j tanh ((Σ_d enc[b,t,d] · W_enc[d,j] + b_enc[j]) + (Σ_d pred[b,u,d] · W_pred[d,j] + b_pred[j])) · W_out[j,v] + b_out[v]

  (`Cert.Joint.logit`, Proof/Spec.lean) — the same sums of the same products in the same order, so the equality needs no
  law of arithmetic beyond reading both programs at an index, and never opens the precondition.

  * The reference (Proof/RefIsSpec.lean): three `dot_general`s, each a sum over its contracted axis at the ideal values,
    between broadcasts, additions and one hyperbolic tangent, read operation by operation.
  * The kernel: two dense-layer launches whose one block is the whole array (Proof/Projection.lean for the body,
    Proof/EncLaunch.lean and Proof/PredLaunch.lean for the array each leaves), row-major re-layouts between
    `[B · T, J]` and `[B, T, J]` on the host, and the joint launch on an `8 × 5` grid whose `[1, 40, 100, 1024]` blocks tile
    the result (Proof/JointBody.lean for the body — the `[40, 100, 640]` tangent laid out as 4000 rows for the matrix
    unit and back —, Proof/JointLaunch.lean for the array).  The changes of float format (f32 to bf16 and back) are the
    identity on the extended reals.  Proof/Chain.lean follows the result buffer back through the launches to the
    arguments; Proof/KernelRun.lean states the program's run with that buffer named.
-/
import proofs.«164637_j3582002725423_1_alg».proof.Defs
import proofs.«164637_j3582002725423_1_alg».proof.Proof.Gen.Kernel
import proofs.«164637_j3582002725423_1_alg».proof.Proof.Gen.Kernel.Skeleton
import proofs.«164637_j3582002725423_1_alg».proof.Proof.Gen.Kernel.Launch
import proofs.«164637_j3582002725423_1_alg».proof.Proof.Gen.Kernel.Points
import proofs.«164637_j3582002725423_1_alg».proof.Proof.Gen.Kernel.Frame
import proofs.«164637_j3582002725423_1_alg».proof.Proof.Gen.KernelIdeal
import proofs.«164637_j3582002725423_1_alg».proof.Proof.Gen.KernelIdeal.Skeleton
import proofs.«164637_j3582002725423_1_alg».proof.Proof.Gen.KernelIdeal.Launch
import proofs.«164637_j3582002725423_1_alg».proof.Proof.Gen.KernelIdeal.Points
import proofs.«164637_j3582002725423_1_alg».proof.Proof.Gen.KernelIdeal.Frame
import proofs.«164637_j3582002725423_1_alg».proof.Proof.Gen.ReferenceIdeal
import proofs.«164637_j3582002725423_1_alg».proof.Proof.Gen.Pre_finite_inputs
import proofs.«164637_j3582002725423_1_alg».proof.Proof.Gen.ReferenceIdeal.Run
import proofs.«164637_j3582002725423_1_alg».proof.Proof.Gen.ReferenceIdeal.Read
import proofs.«164637_j3582002725423_1_alg».proof.Proof.KernelRun
import proofs.«164637_j3582002725423_1_alg».proof.Proof.Chain
import proofs.«164637_j3582002725423_1_alg».proof.Proof.RefIsSpec
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel is the kernel's own text read at the ideal values. -/
theorem preserves : Cert.preserves_Kernel_KernelIdeal := trivial

/-- Both programs end with the result array at `Cert.Joint.logits` of the arguments. -/
theorem algebraic : Cert.algebraic_KernelIdeal_ReferenceIdeal := by
  intro m ρ m' ρ' _ hagree
  refine ⟨_, Cert.KernelIdeal.Chain.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v17_eq, Cert.ReferenceIdeal.RefValue.result_eq, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
